-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192x128 .f32) (main_arg1 : FVec F S8192x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x128 : Shape := ⟨2, ![8192, 128]⟩
abbrev S8192x8192 : Shape := ⟨2, ![8192, 8192]⟩
abbrev S8192x1 : Shape := ⟨2, ![8192, 1]⟩
abbrev S2048x1024 : Shape := ⟨2, ![2048, 1024]⟩
abbrev S2048x128 : Shape := ⟨2, ![2048, 128]⟩
abbrev S2048x1 : Shape := ⟨2, ![2048, 1]⟩
abbrev S2048 : Shape := ⟨1, ![2048]⟩
abbrev S1024x128 : Shape := ⟨2, ![1024, 128]⟩
abbrev S8192 : Shape := ⟨1, ![8192]⟩
abbrev S_ : Shape := ⟨0, ![]⟩
abbrev S128 : Shape := ⟨1, ![128]⟩

abbrev nBuf : Space → Nat
  | .hbm => 30
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x128, .bf16⟩
  | .hbm, ⟨3, _⟩ => ⟨S8192x1, .f32⟩
  | .hbm, ⟨4, _⟩ => ⟨S8192x1, .f32⟩
  | .hbm, ⟨5, _⟩ => ⟨S8192, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8192x1, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x1024, .f32⟩
  | .local _ .vmem, ⟨1, _⟩ => ⟨S2048x1024, .f32⟩
  | .local _ .vmem, ⟨2, _⟩ => ⟨S8192x128, .bf16⟩
  | .local _ .vmem, ⟨3, _⟩ => ⟨S2048x128, .f32⟩
  | .local _ .vmem, ⟨4, _⟩ => ⟨S2048x128, .f32⟩
  | .local _ .vmem, ⟨5, _⟩ => ⟨S2048x1, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | .local _ .vmem, ⟨9, _⟩ => ⟨S2048x128, .f32⟩
  | .local _ .vmem, ⟨10, _⟩ => ⟨S2048x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_6 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_6 : Index := 0#32
  ![v13.toNat, 0]
def k0_cond2 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  reduces_S2048x1024_S2048 : S2048x1024.Reduces [1] S2048
  shapeCasts_S2048_S2048x1 : S2048.ShapeCasts S2048x1
  h_S1024x128 : 0 < S1024x128.numel
  shapeCasts_S1024x128_S1024x128 : S1024x128.ShapeCasts S1024x128
  reduces_S2048x128_S2048 : S2048x128.Reduces [1] S2048
  shapeCasts_S8192x1_S8192 : S8192x1.ShapeCasts S8192
  reducesTo_S8192x1_S_d0_1 : S8192x1.ReducesTo [0, 1] S_
  h_S_ : 0 < S_.numel
  reducesTo_S8192_S_d0 : S8192.ReducesTo [0] S_
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  reducesTo_S8192x128_S128_d0 : S8192x128.ReducesTo [0] S128
  reducesTo_S128_S_d0 : S128.ReducesTo [0] S_
  dot_S2048x1024_S1024x128_S2048x128_1_0_0_1_n_n_wf : DotDims.WF S2048x1024 S1024x128 S2048x128 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x8192.size a
  hwx0_0 : ∀ i : grid0.Coords, EltTy.bits .f32 = 32 ∨ (Rect.block (s := S8192x8192) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)

variable [Facts₀]

def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf

abbrev win0_0 : Pipeline.Window sig grid0 :=
  Pipeline.Window.ofSpec (Memref.whole main_arg1) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S2048x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩

abbrev nBuf : Space → Nat
  | .hbm => 28
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x128, .f32⟩
  | .hbm, ⟨21, _⟩ => ⟨S8192x128, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  reducesTo_S8192x8192_S8192_d1 : S8192x8192.ReducesTo [1] S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x128_S_d0_1 : S8192x128.ReducesTo [0, 1] S_
  dot_S8192x8192_S8192x128_S8192x128_1_0_0_1_n_n_wf : DotDims.WF S8192x8192 S8192x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.Pieces.lean ====
/-
  What one run of the kernel body leaves behind, case by case, as the body's own arithmetic.

  The body keeps two accumulators across the eight column blocks of a row block: acc [2048,128], the partial
  product of W's row block with X, and dacc [2048,1], the partial row sums of W. At the first column block
  (case A) both are zeroed and then updated; at every block they are updated (cases B and C),
      acc  ← acc + Wblock · Xrows        (k0_pay4),      dacc ← dacc + rowsum Wblock     (k0_pay3),
  where Xrows is the 1024 rows of X that the column block meets; at the last column block (case C) the two
  outputs are also written: the degrees dacc, and the row sums of Xblock * acc (k0_pay5).
-/
import proofs.«124940_j13434657702449_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl

/-- The 1024 rows of X (its bf16 copy, whole in its buffer) that column block `i 1` of W meets: rows
    1024·(i 1) … 1024·(i 1) + 1023, all 128 columns. -/
def xrows (i : grid0.Coords) (x1 : Vec F S8192x128 .bf16) : Vec F S1024x128 .bf16 :=
  View.ld x1 (Rect.unit (k0_off1 i) S1024x128.size (k0_off1_inb i))

/-- First column block: the product accumulator is zeroed, then holds this block's product. -/
theorem acc_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : cond0_0 i) (hc1 : ¬cond0_1 i)
    (x0 : Vec F S2048x1024 .f32) (x1 : Vec F S8192x128 .bf16) (x2 : Vec F S2048x128 .f32) :
    sout0_A_0 c i arg2 harg2 arg3 harg3 arg4 harg4 arg5 harg5 arg6 harg6 arg7 harg7 arg8 harg8 hc0 hc1 x0 x1 x2 = k0_pay4 x0 (xrows i x1) k0_pay1 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x128) hz2, View.readCov_unit_zero (S := S2048x128) _ hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]
  rfl

/-- First column block: the degree accumulator is zeroed, then holds this block's row sums. -/
theorem dacc_A (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : cond0_0 i) (hc1 : ¬cond0_1 i)
    (x0 : Vec F S2048x1024 .f32) (x1 : Vec F S8192x128 .bf16) (x2 : Vec F S2048x128 .f32) :
    sout0_A_1 c i arg2 harg2 arg3 harg3 arg4 harg4 arg5 harg5 arg6 harg6 arg7 harg7 arg8 harg8 hc0 hc1 x0 x1 x2 = k0_pay3 x0 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S2048x1) hz2, View.readCov_unit_zero (S := S2048x1) _ hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]

/-- A middle column block adds its product to the carried accumulator. -/
theorem acc_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : ¬cond0_0 i) (hc1 : ¬cond0_1 i)
    (x0 : Vec F S2048x1024 .f32) (x1 : Vec F S8192x128 .bf16) (x2 : Vec F S2048x128 .f32) (xs0 : Vec F S2048x128 .f32) (xs1 : Vec F S2048x1 .f32) :
    sout0_B_0 c i arg2 harg2 arg3 harg3 arg4 harg4 arg5 harg5 arg6 harg6 arg7 harg7 arg8 harg8 hc0 hc1 x0 x1 x2 xs0 xs1 = k0_pay4 x0 (xrows i x1) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]
  rfl

/-- A middle column block adds its row sums to the carried degrees. -/
theorem dacc_B (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : ¬cond0_0 i) (hc1 : ¬cond0_1 i)
    (x0 : Vec F S2048x1024 .f32) (x1 : Vec F S8192x128 .bf16) (x2 : Vec F S2048x128 .f32) (xs0 : Vec F S2048x128 .f32) (xs1 : Vec F S2048x1 .f32) :
    sout0_B_1 c i arg2 harg2 arg3 harg3 arg4 harg4 arg5 harg5 arg6 harg6 arg7 harg7 arg8 harg8 hc0 hc1 x0 x1 x2 xs0 xs1 = k0_pay3 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]

/-- The last column block adds its product to the carried accumulator. -/
theorem acc_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : ¬cond0_0 i) (hc1 : cond0_1 i)
    (x0 : Vec F S2048x1024 .f32) (x1 : Vec F S8192x128 .bf16) (x2 : Vec F S2048x128 .f32) (xs0 : Vec F S2048x128 .f32) (xs1 : Vec F S2048x1 .f32) :
    sout0_C_0 c i arg2 harg2 arg3 harg3 arg4 harg4 arg5 harg5 arg6 harg6 arg7 harg7 arg8 harg8 hc0 hc1 x0 x1 x2 xs0 xs1 = k0_pay4 x0 (xrows i x1) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]
  rfl

/-- The last column block adds its row sums to the carried degrees. -/
theorem dacc_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : ¬cond0_0 i) (hc1 : cond0_1 i)
    (x0 : Vec F S2048x1024 .f32) (x1 : Vec F S8192x128 .bf16) (x2 : Vec F S2048x128 .f32) (xs0 : Vec F S2048x128 .f32) (xs1 : Vec F S2048x1 .f32) :
    sout0_C_1 c i arg2 harg2 arg3 harg3 arg4 harg4 arg5 harg5 arg6 harg6 arg7 harg7 arg8 harg8 hc0 hc1 x0 x1 x2 xs0 xs1 = k0_pay3 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]

/-- At the last column block the degree output is the finished degree accumulator. -/
theorem deg_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : ¬cond0_0 i) (hc1 : cond0_1 i)
    (x0 : Vec F S2048x1024 .f32) (x1 : Vec F S8192x128 .bf16) (x2 : Vec F S2048x128 .f32) (xs0 : Vec F S2048x128 .f32) (xs1 : Vec F S2048x1 .f32) :
    out0_C_3 c i arg2 harg2 arg3 harg3 arg4 harg4 arg5 harg5 arg6 harg6 arg7 harg7 arg8 harg8 hc0 hc1 x0 x1 x2 xs0 xs1 = k0_pay3 x0 xs1 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2, View.readCov_unit_zero (S := S2048x1) _ hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]

/-- At the last column block the pairing output is the row sums of X's row block times the finished product. -/
theorem pair_C (c : Dev nD) (i : grid0.Coords) (arg2 : Memref sig .tc .vmem S2048x1024 .f32) (harg2 : arg2.IsWhole) (arg3 : Memref sig .tc .vmem S8192x128 .bf16) (harg3 : arg3.IsWhole) (arg4 : Memref sig .tc .vmem S2048x128 .f32) (harg4 : arg4.IsWhole) (arg5 : Memref sig .tc .vmem S2048x1 .f32) (harg5 : arg5.IsWhole) (arg6 : Memref sig .tc .vmem S2048x1 .f32) (harg6 : arg6.IsWhole) (arg7 : Memref sig .tc .vmem S2048x128 .f32) (harg7 : arg7.IsWhole) (arg8 : Memref sig .tc .vmem S2048x1 .f32) (harg8 : arg8.IsWhole) (hc0 : ¬cond0_0 i) (hc1 : cond0_1 i)
    (x0 : Vec F S2048x1024 .f32) (x1 : Vec F S8192x128 .bf16) (x2 : Vec F S2048x128 .f32) (xs0 : Vec F S2048x128 .f32) (xs1 : Vec F S2048x1 .f32) :
    out0_C_4 c i arg2 harg2 arg3 harg3 arg4 harg4 arg5 harg5 arg6 harg6 arg7 harg7 arg8 harg8 hc0 hc1 x0 x1 x2 xs0 xs1 = k0_pay5 x2 (k0_pay4 x0 (xrows i x1) xs0) := by
  unfold out0_C_4
  rw [View.read_writes_eq_canon _ _ _ (cover0_C_4 c i arg2 harg2 arg3 harg3 arg4 harg4 arg5 harg5 arg6 harg6 arg7 harg7 arg8 harg8 hc0 hc1 x0 x1 x2 xs0 xs1)]
  unfold kernelRun0_C
  dsimp only
  sl_unfold_words
  rw [View.canon_unit_zero hz2, View.readCov_unit_zero (S := S2048x128) _ hz2]
  simp only [View.readAt_eq_ld, harg2.read_unread, harg3.read_unread, harg4.read_unread, harg7.read_unread, harg8.read_unread, View.ld_unit_zero (S := S2048x1024) hz2, View.ld_unit_zero (S := S2048x128) hz2, View.ld_unit_zero (S := S2048x1) hz2]
  rfl

end Cert.KernelIdeal.Pieces

end
-- ==== Proof.Accum.lean ====
/-
  The two accumulators, point by point.

  Grid point t = 8·i + k works on row block i and column block k of W. The body keeps acc (the partial product
  of W's row block with X) and dacc (the partial row sums) across k. What the two scratch buffers hold after
  point t, in terms of what the point before left:
    at k = 0 they restart:   acc = 0 + Wblock · Xrows,          dacc = 0 + rowsum Wblock;
    at k > 0 they add on:    acc = before.acc + Wblock · Xrows,  dacc = before.dacc + rowsum Wblock;
  and at the last column block (k = 7) the degree output is the finished dacc and the pairing output is the row
  sums of X's row block times the finished acc. Stated for any float instance, at an arbitrary point t.
-/
import proofs.«124940_j13434657702449_2_alg».proof.Proof.Pieces

set_option maxRecDepth 16384

noncomputable section

open Idealize.ShloMosaic Idealize.ShloMosaic.TcCoe Idealize.ShloMosaic.Tactic Idealize.SL.Sem
open Idealize.ShloMosaic.Pipeline (Dat)

namespace Cert.KernelIdeal.Accum
open Cert.KernelIdeal Cert.KernelIdeal.Gen
variable {F : FTy → Type} [FloatOps F]

open Cert.KernelIdeal.Pieces

variable (m : (ℓ : Loc nD τ sig) → Buf (Elt F) ℓ)

/-- At point t: W's [2048,1024] block, the 1024 rows of X it meets, and X's [2048,128] row block. -/
abbrev wblk (c : Dev nD) (t : Fin cfg0.N) : Vec F S2048x1024 .f32 := iblk m c 0 t
abbrev xr (c : Dev nD) (t : Fin cfg0.N) : Vec F S1024x128 .bf16 := xrows (grid0.coords t) (iblk m c 1 t)
abbrev xblk (c : Dev nD) (t : Fin cfg0.N) : Vec F S2048x128 .f32 := iblk m c 2 t

/-- The two scratch buffers (product accumulator, degree accumulator) after point t, and after the point before t. -/
abbrev after (c : Dev nD) (t : Fin cfg0.N) : Vec F S2048x128 .f32 × Vec F S2048x1 .f32 := (outsAt0 m c t.val t.isLt).2.2
abbrev before (c : Dev nD) (t : Fin cfg0.N) : Vec F S2048x128 .f32 × Vec F S2048x1 .f32 :=
  (outsAt0 m c (t.val - 1) (Nat.lt_of_le_of_lt (Nat.sub_le _ _) t.isLt)).2.2

/-- First column block: both accumulators restart from zero and take this block's contribution. -/
theorem restart (c : Dev nD) (t : Fin cfg0.N) (h0 : t.val % 8 = 0) (h1 : ¬t.val % 8 = 7) :
    after m c t = (k0_pay4 (wblk m c t) (xr m c t) k0_pay1, k0_pay3 (wblk m c t) k0_pay2) := by
  show (outsAt0 m c t.val t.isLt).2.2 = _
  rw [outsAt0_A m c t h0 h1]
  dsimp only
  rw [acc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun hq => h1 ((hcond0_1 t).mp hq)) (iblk m c 0 t) (iblk m c 1 t) (iblk m c 2 t), dacc_A c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun hq => h1 ((hcond0_1 t).mp hq)) (iblk m c 0 t) (iblk m c 1 t) (iblk m c 2 t)]

/-- A middle column block adds its contribution to what the point before left. -/
theorem step_mid (c : Dev nD) (t : Fin cfg0.N) (h0 : ¬t.val % 8 = 0) (h1 : ¬t.val % 8 = 7) :
    after m c t = (k0_pay4 (wblk m c t) (xr m c t) (before m c t).1, k0_pay3 (wblk m c t) (before m c t).2) := by
  show (outsAt0 m c t.val t.isLt).2.2 = _
  rw [outsAt0_B m c t h0 h1]
  dsimp only
  rw [acc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) (fun hq => h1 ((hcond0_1 t).mp hq)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, dacc_B c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) (fun hq => h1 ((hcond0_1 t).mp hq)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- The last column block does the same. -/
theorem step_last (c : Dev nD) (t : Fin cfg0.N) (h0 : ¬t.val % 8 = 0) (h1 : t.val % 8 = 7) :
    after m c t = (k0_pay4 (wblk m c t) (xr m c t) (before m c t).1, k0_pay3 (wblk m c t) (before m c t).2) := by
  show (outsAt0 m c t.val t.isLt).2.2 = _
  rw [outsAt0_C m c t h0 h1]
  dsimp only
  rw [acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, dacc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]

/-- At a last column block the degree output is the finished degree accumulator, and the pairing output is the row
    sums of X's row block times the finished product. -/
theorem outs_last (c : Dev nD) (t : Fin cfg0.N) (h0 : ¬t.val % 8 = 0) (h1 : t.val % 8 = 7) :
    (outsAt0 m c t.val t.isLt).1 = (after m c t).2
      ∧ (outsAt0 m c t.val t.isLt).2.1 = k0_pay5 (xblk m c t) (after m c t).1 := by
  show _ = (outsAt0 m c t.val t.isLt).2.2.2 ∧ _ = k0_pay5 _ (outsAt0 m c t.val t.isLt).2.2.1
  rw [outsAt0_C m c t h0 h1]
  dsimp only
  rw [deg_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, dacc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, pair_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, acc_C c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hq => h0 ((hcond0_0 t).mp hq)) ((hcond0_1 t).mpr h1) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]
  exact ⟨rfl, rfl⟩

end Cert.KernelIdeal.Accum

end
-- ==== Proof.Blocks.lean ====
/-
  What the windows' blocks hold, entry by entry, in terms of the two argument arrays.

  At grid point t, with i = t / 8 the row block and k = t % 8 the column block:
    W's window stages the [2048,1024] block whose entry (r,e) is W (2048·i + r, 1024·k + e);
    the whole bf16 copy of X is staged once, and the body loads from it the 1024 rows starting at 1024·k, so entry
      (e,p) of what it loads is the copy's entry (1024·k + e, p); the copy is X with its format changed;
    X's own window stages the [2048,128] row block whose entry (r,p) is X (2048·i + r, p).
-/
import proofs.«124940_j13434657702449_2_alg».proof.Proof.Accum
import Idealize.ShloMosaic.Lib.StableHlo.Run
import Idealize.ShloMosaic.Lib.ValueIdx

set_option maxRecDepth 16384

noncomputable section

open Idealize.ShloMosaic Idealize.ShloMosaic.TcCoe Idealize.ShloMosaic.Tactic Idealize.SL.Sem
open Idealize.ShloMosaic.Pipeline (Dat)

namespace Cert.KernelIdeal.Blocks
open Cert.KernelIdeal Cert.KernelIdeal.Gen
variable {F : FTy → Type} [FloatOps F]

open Cert.KernelIdeal.Pieces Cert.KernelIdeal.Accum Idealize.ShloMosaic.ValueIdx

variable (m : (ℓ : Loc nD τ sig) → Buf (Elt F) ℓ)

theorem N32 : cfg0.N = 32 := N_0

/-- Row 2048·(n/8) + r of the big arrays, for a point n of the grid and a row r of its block. -/
def bigRow (n : ℕ) (hn : n < 32) (r : Fin 2048) : Fin 8192 := ⟨2048 * (n / 8) + r.val, by have := r.isLt; omega⟩
/-- Column 1024·(n%8) + e, for a point n and a column e of its block. -/
def bigCol (n : ℕ) (e : Fin 1024) : Fin 8192 := ⟨1024 * (n % 8) + e.val, by have := e.isLt; omega⟩

/-- Each window's block index over the grid: W's window moves with (i,k), X's own with i, and the body's row
    offset into the staged copy is 1024·k. -/
theorem idx_W : ∀ t : Fin cfg0.N, win0_0.index t 0 = t.val / 8 ∧ win0_0.index t 1 = t.val % 8 := by decide +kernel
theorem idx_Xcopy : ∀ t : Fin cfg0.N, win0_1.index t 0 = 0 ∧ win0_1.index t 1 = 0 := by decide +kernel
theorem idx_X : ∀ t : Fin cfg0.N, win0_2.index t 0 = t.val / 8 ∧ win0_2.index t 1 = 0 := by decide +kernel
theorem off_rows : ∀ t : Fin cfg0.N, k0_off1 (grid0.coords t) 0 = 1024 * (t.val % 8) ∧ k0_off1 (grid0.coords t) 1 = 0 := by decide +kernel

/-- Entry (r,e) of W's block at point t. -/
theorem wblk_apply (c : Dev nD) (t : Fin cfg0.N) (r : Fin 2048) (e : Fin 1024) :
    wblk m c t (ix2 r e)
      = m ((c : Thread nD τ).loc main_arg1) (ix2 (bigRow t.val (lt_of_lt_of_eq t.isLt N32) r) (bigCol t.val e)) := by
  unfold wblk iblk
  rw [View.read_apply, V_main_arg1]
  refine congrArg (m ((c : Thread nD τ).loc main_arg1)) ?_
  funext a
  apply Fin.ext
  match a with
  | ⟨0, _⟩ => show win0_0.index t 0 * 2048 + 1 * r.val = 2048 * (t.val / 8) + r.val; rw [(idx_W t).1]; omega
  | ⟨1, _⟩ => show win0_0.index t 1 * 1024 + 1 * e.val = 1024 * (t.val % 8) + e.val; rw [(idx_W t).2]; omega

/-- Entry (r,p) of X's row block at point t. -/
theorem xblk_apply (c : Dev nD) (t : Fin cfg0.N) (r : Fin 2048) (p : Fin 128) :
    xblk m c t (ix2 r p)
      = m ((c : Thread nD τ).loc main_arg0) (ix2 (bigRow t.val (lt_of_lt_of_eq t.isLt N32) r) p) := by
  unfold xblk iblk
  rw [View.read_apply, V_main_arg0]
  refine congrArg (m ((c : Thread nD τ).loc main_arg0)) ?_
  funext a
  apply Fin.ext
  match a with
  | ⟨0, _⟩ => show win0_2.index t 0 * 2048 + 1 * r.val = 2048 * (t.val / 8) + r.val; rw [(idx_X t).1]; omega
  | ⟨1, _⟩ => show win0_2.index t 1 * 128 + 1 * p.val = p.val; rw [(idx_X t).2]; omega

/-- The staged copy of X is X with its float format changed (the one host operation before the call). -/
theorem V_copy (c : Dev nD) :
    (V m c main_v0 : S8192x128.Idx → Elt F .bf16) = truncf .bf16 (m ((c : Thread nD τ).loc main_arg0)) bitsLt_bf16_f32 := by
  show StableHlo.after hostOps0 (fun b => m (c, b)) (Proc.devRef .tc main_v0) = _
  after_results

/-- Entry (e,p) of the rows of the copy that the body loads at point t. -/
theorem xr_apply (c : Dev nD) (t : Fin cfg0.N) (e : Fin 1024) (p : Fin 128) :
    xr m c t (ix2 e p)
      = (truncf .bf16 (m ((c : Thread nD τ).loc main_arg0)) bitsLt_bf16_f32 : S8192x128.Idx → Elt F .bf16) (ix2 (bigCol t.val e) p) := by
  unfold xr xrows iblk
  rw [← V_copy m c]
  show V m c main_v0 _ = V m c main_v0 _
  congr 1
  funext a
  apply Fin.ext
  match a with
  | ⟨0, _⟩ => show win0_1.index t 0 * 8192 + 1 * (k0_off1 (grid0.coords t) 0 + 1 * e.val) = 1024 * (t.val % 8) + e.val; rw [(idx_Xcopy t).1, (off_rows t).1]; omega
  | ⟨1, _⟩ => show win0_1.index t 1 * 128 + 1 * (k0_off1 (grid0.coords t) 1 + 1 * p.val) = p.val; rw [(idx_Xcopy t).2, (off_rows t).2]; omega

end Cert.KernelIdeal.Blocks

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibVectorColumn.lean ====
/-
  A vector made into a column, two ways: a general layout lemma.

  An `[a]` array becomes an `[a, 1]` column either by a shape cast (row-major order kept) or by a broadcast that sends
  its one axis to axis 0. Either way the entry at `(p, 0)` is the vector's entry at `p`, so the two columns are the
  same array.
-/
import Idealize.ShloMosaic.Lib.Pipeline.Value
import Idealize.ShloMosaic.Lib.ValueIdx

namespace Cert.LibVectorColumn

open Idealize.ShloMosaic Idealize.ShloMosaic.ValueIdx

/-- An `[a]` array shape-cast to `[a, 1]` reads, at `(p, u)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a]` array broadcast to `[a, 1]` along axis 0 reads, at `(p, u)`, the operand at `p`. -/
theorem broadcastInDim_a_a1_apply {α : Type} {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- The shape-cast column and the broadcast column of one vector are the same array. -/
theorem shapeCast_eq_broadcastInDim {α : Type} {a : ℕ} (x : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ x h = broadcastInDim ⟨2, ![a, 1]⟩ ![0] h' x := by
  funext i
  obtain ⟨p, u, rfl⟩ : ∃ (p : Fin a) (u : Fin 1), i = ix2 p u := ⟨i 0, i 1, eq_ix2 i⟩
  rw [shapeCast_a_a1_apply, broadcastInDim_a_a1_apply]

end Cert.LibVectorColumn
-- ==== Proof.PayloadsIdeal.lean ====
/-
  The body's arithmetic read at an index, at the exact extended reals.

  With W a [2048,1024] block, Xr the [1024,128] rows of X it meets, Xb a [2048,128] row block of X, acc a [2048,128]
  accumulator and dacc a [2048,1] one:
    the zeroed accumulators hold the zero word everywhere;
    the degree update at (r,0) is   dacc (r,0) + ∑ e, W (r,e)                      (a lane sum, kept as a column);
    the product update at (r,p) is  acc (r,p) + ∑ e, W (r,e) * Xr (e,p)          (a change of float format is the
                                                                                  identity; the product starts from zero);
    the pairing at (r,0) is         ∑ p, Xb (r,p) * acc (r,p).
-/
import proofs.«124940_j13434657702449_2_alg».proof.Proof.Gen.KernelIdeal.Skeleton
import proofs.«124940_j13434657702449_2_alg».proof.Proof.LibMatmulNN
import proofs.«124940_j13434657702449_2_alg».proof.Proof.LibVectorColumn
import Idealize.ShloMosaic.PureOps.Ideal.Laws
import Idealize.ShloMosaic.Lib.Pipeline.Value
import Idealize.ShloMosaic.Lib.ValueIdx

noncomputable section

namespace Cert.KernelIdeal.PayloadsIdeal

open Idealize.ShloMosaic Idealize.ShloMosaic.ValueIdx Cert.KernelIdeal Cert.KernelIdeal.Gen

/-- The zeroed product accumulator holds the zero word. -/
theorem pay1_apply (r : Fin 2048) (p : Fin 128) :
    k0_pay1 (F := Ideal) (ix2 r p) = Ideal.ofBits .f32 0x00000000#32 := by
  unfold k0_pay1
  rw [shapeCast_self]
  rfl

/-- The zeroed degree accumulator holds the zero word. -/
theorem pay2_apply (r : Fin 2048) (u : Fin 1) :
    k0_pay2 (F := Ideal) (ix2 r u) = Ideal.ofBits .f32 0x00000000#32 := by
  unfold k0_pay2
  rw [shapeCast_self]
  rfl

/-- Row r's lane sum of a [2048,1024] block. -/
theorem rowsum_apply (v3 : FVec Ideal S2048x1024 .f32) (r : Fin 2048) :
    multiReduction (F := Ideal) .add [1] S2048 v3 0x00000000#32 reduces_S2048x1024_S2048 (.inl rfl) rfl (ix1 r)
      = ∑ e : Fin 1024, v3 (ix2 r e) := by
  refine (Ideal.multiReduction_add_single v3 _ reduces_S2048x1024_S2048 _ _ (ix1 r)).trans ?_
  refine Finset.sum_congr rfl fun e _ => congrArg v3 ?_
  funext a
  match a with
  | ⟨0, _⟩ => rfl
  | ⟨1, _⟩ => rfl

/-- The degree update. -/
theorem pay3_apply (v3 : FVec Ideal S2048x1024 .f32) (v4 : FVec Ideal S2048x1 .f32) (r : Fin 2048) (u : Fin 1) :
    k0_pay3 (F := Ideal) v3 v4 (ix2 r u) = v4 (ix2 r u) + ∑ e : Fin 1024, v3 (ix2 r e) := by
  unfold k0_pay3
  rw [shapeCast_self, addf_apply, Cert.LibVectorColumn.shapeCast_a_a1_apply, rowsum_apply]

/-- The product update. -/
theorem pay4_apply (v3 : FVec Ideal S2048x1024 .f32) (v14 : FVec Ideal S1024x128 .bf16) (v17 : FVec Ideal S2048x128 .f32)
    (r : Fin 2048) (p : Fin 128) :
    k0_pay4 (F := Ideal) v3 v14 v17 (ix2 r p) = v17 (ix2 r p) + ∑ e : Fin 1024, v3 (ix2 r e) * v14 (ix2 e p) := by
  unfold k0_pay4
  rw [shapeCast_self, shapeCast_self, addf_apply]
  refine congrArg (v17 (ix2 r p) + ·) ?_
  exact Cert.LibMatmulNN.matmul_zero_apply dot_S2048x1024_S1024x128_S2048x128_1_0_0_1_n_n_wf none
    (truncf .bf16 v3 bitsLt_bf16_f32) v14 r p

/-- Row r's lane sum of a [2048,128] block. -/
theorem rowsum128_apply (v : FVec Ideal S2048x128 .f32) (r : Fin 2048) :
    multiReduction (F := Ideal) .add [1] S2048 v 0x00000000#32 reduces_S2048x128_S2048 (.inl rfl) rfl (ix1 r)
      = ∑ p : Fin 128, v (ix2 r p) := by
  refine (Ideal.multiReduction_add_single v _ reduces_S2048x128_S2048 _ _ (ix1 r)).trans ?_
  refine Finset.sum_congr rfl fun p _ => congrArg v ?_
  funext a
  match a with
  | ⟨0, _⟩ => rfl
  | ⟨1, _⟩ => rfl

/-- The pairing of a row block of X with the finished product. -/
theorem pay5_apply (v28 v29 : FVec Ideal S2048x128 .f32) (r : Fin 2048) (u : Fin 1) :
    k0_pay5 (F := Ideal) v28 v29 (ix2 r u) = ∑ p : Fin 128, v28 (ix2 r p) * v29 (ix2 r p) := by
  unfold k0_pay5
  rw [Cert.LibVectorColumn.shapeCast_a_a1_apply, rowsum128_apply]
  rfl

end Cert.KernelIdeal.PayloadsIdeal

end
-- ==== Proof.BlockSum.lean ====
/-
  Adding up a row of 8192 terms in eight consecutive blocks of 1024.

  For a family f over the 8192 columns, write S n for the sum of the first n terms (f extended by zero past the
  end). Then S 0 = 0, adding the 1024 terms of block k to S (1024·k) gives S (1024·(k+1)), and S 8192 is the sum
  of the whole row. Only associativity and commutativity of addition are used, so this holds in the extended reals
  with no finiteness.
-/
import Idealize.ShloMosaic.PureOps.Ideal

noncomputable section

namespace Cert.BlockSum

open Finset

variable {M : Type} [AddCommMonoid M]

/-- f extended by zero to every natural number. -/
def ext (f : Fin 8192 → M) (n : ℕ) : M := if h : n < 8192 then f ⟨n, h⟩ else 0

/-- The sum of the first n terms. -/
def upTo (f : Fin 8192 → M) (n : ℕ) : M := ∑ j ∈ range n, ext f j

theorem upTo_zero (f : Fin 8192 → M) : upTo f 0 = 0 := by
  unfold upTo; rw [range_zero, sum_empty]

/-- Term e of block k is term 1024·k + e of the row. -/
theorem ext_block (f : Fin 8192 → M) (k : ℕ) (hk : k < 8) (e : Fin 1024) :
    ext f (1024 * k + e.val) = f ⟨1024 * k + e.val, by have := e.isLt; omega⟩ := by
  unfold ext
  rw [dif_pos (by have := e.isLt; omega)]

/-- Adding block k to the first 1024·k terms gives the first 1024·(k+1) terms. -/
theorem upTo_block (f : Fin 8192 → M) (k : ℕ) (hk : k < 8) :
    upTo f (1024 * k) + ∑ e : Fin 1024, f ⟨1024 * k + e.val, by have := e.isLt; omega⟩ = upTo f (1024 * (k + 1)) := by
  unfold upTo
  rw [show 1024 * (k + 1) = 1024 * k + 1024 by ring, sum_range_add, ← Fin.sum_univ_eq_sum_range (fun j => ext f (1024 * k + j)) 1024]
  congr 1
  exact Finset.sum_congr rfl fun e _ => (ext_block f k hk e).symm

/-- All 8192 terms: the sum of the row. -/
theorem upTo_all (f : Fin 8192 → M) : upTo f 8192 = ∑ q : Fin 8192, f q := by
  unfold upTo
  rw [← Fin.sum_univ_eq_sum_range (fun j => ext f j) 8192]
  exact Finset.sum_congr rfl fun q _ => by unfold ext; rw [dif_pos q.isLt]

end Cert.BlockSum

end
-- ==== Proof.AccumIdeal.lean ====
/-
  The two accumulators at the exact extended reals, entry by entry.

  Write X and W for the two argument arrays. At grid point t (row block i = t / 8, column block k = t % 8), row r
  of the block is row R = 2048·i + r of the arrays. After point t,
      acc (r,p)  = 0w + (the first 1024·(k+1) terms of  q ↦ W (R,q) * X (q,p)),
      dacc (r,0) = 0w + (the first 1024·(k+1) terms of  q ↦ W (R,q)),
  where 0w is the zero word the accumulators were reset to. This is an induction on the point: at k = 0 the sum of
  no terms is 0 and the block adds terms 0 … 1023; at k > 0 the point before left the first 1024·k terms (same row
  block, since k > 0) and the block adds the next 1024. Only associativity of addition is used.
-/
import proofs.«124940_j13434657702449_2_alg».proof.Proof.Blocks
import proofs.«124940_j13434657702449_2_alg».proof.Proof.PayloadsIdeal
import proofs.«124940_j13434657702449_2_alg».proof.Proof.BlockSum

set_option maxRecDepth 16384

noncomputable section

open Idealize.ShloMosaic Idealize.ShloMosaic.TcCoe Idealize.ShloMosaic.Tactic Idealize.SL.Sem
open Idealize.ShloMosaic.Pipeline (Dat)

namespace Cert.KernelIdeal.AccumIdeal
open Cert.KernelIdeal Cert.KernelIdeal.Gen

open Cert.KernelIdeal.Pieces Cert.KernelIdeal.Accum Cert.KernelIdeal.Blocks Cert.KernelIdeal.PayloadsIdeal
open Idealize.ShloMosaic.ValueIdx Cert.BlockSum

variable (m : (ℓ : Loc nD τ sig) → Buf (Elt Ideal) ℓ)

/-- The zero word. -/
abbrev zw : EReal := Ideal.ofBits .f32 0x00000000#32

/-- The two argument arrays on core c. -/
abbrev Xa (c : Dev nD) : S8192x128.Idx → EReal := m ((c : Thread nD τ).loc main_arg0)
abbrev Wa (c : Dev nD) : S8192x8192.Idx → EReal := m ((c : Thread nD τ).loc main_arg1)

/-- Row R of W against column p of X, term by term; and row R of W. -/
def prodRow (c : Dev nD) (R : Fin 8192) (p : Fin 128) : Fin 8192 → EReal := fun q => Wa m c (ix2 R q) * Xa m c (ix2 q p)
def degRow (c : Dev nD) (R : Fin 8192) : Fin 8192 → EReal := fun q => Wa m c (ix2 R q)

theorem lt32 (t : Fin cfg0.N) : t.val < 32 := lt_of_lt_of_eq t.isLt N32

/-- The block's contribution to the product at (r,p): terms 1024·k … 1024·k + 1023 of the row. -/
theorem block_prod (c : Dev nD) (t : Fin cfg0.N) (r : Fin 2048) (p : Fin 128) :
    ∑ e : Fin 1024, wblk m c t (ix2 r e) * xr m c t (ix2 e p)
      = ∑ e : Fin 1024, prodRow m c (bigRow t.val (lt32 t) r) p ⟨1024 * (t.val % 8) + e.val, by have := e.isLt; omega⟩ := by
  refine Finset.sum_congr rfl fun e _ => ?_
  rw [wblk_apply m c t r e, xr_apply m c t e p]
  rfl

/-- The block's contribution to the degree at r. -/
theorem block_deg (c : Dev nD) (t : Fin cfg0.N) (r : Fin 2048) :
    ∑ e : Fin 1024, wblk m c t (ix2 r e)
      = ∑ e : Fin 1024, degRow m c (bigRow t.val (lt32 t) r) ⟨1024 * (t.val % 8) + e.val, by have := e.isLt; omega⟩ := by
  refine Finset.sum_congr rfl fun e _ => ?_
  rw [wblk_apply m c t r e]
  rfl

/-- What "the first 1024·k terms are in, now add block k" gives, for any row f. -/
theorem add_block (f : Fin 8192 → EReal) (k : ℕ) (hk : k < 8) (a : EReal) (ha : a = zw + upTo f (1024 * k)) :
    a + ∑ e : Fin 1024, f ⟨1024 * k + e.val, by have := e.isLt; omega⟩ = zw + upTo f (1024 * (k + 1)) := by
  rw [ha, add_assoc, upTo_block f k hk]

/-- The statement carried along the grid: what the two scratch buffers hold, as a pair s. -/
def Holds (c : Dev nD) (t : Fin cfg0.N) (n : ℕ) (s : Vec Ideal S2048x128 .f32 × Vec Ideal S2048x1 .f32) : Prop :=
  (∀ (r : Fin 2048) (p : Fin 128), s.1 (ix2 r p) = zw + upTo (prodRow m c (bigRow t.val (lt32 t) r) p) (1024 * n))
  ∧ (∀ (r : Fin 2048) (u : Fin 1), s.2 (ix2 r u) = zw + upTo (degRow m c (bigRow t.val (lt32 t) r)) (1024 * n))

/-- First column block: from zero to the first 1024 terms. -/
theorem holds_restart (c : Dev nD) (t : Fin cfg0.N) (h0 : t.val % 8 = 0) :
    Holds m c t (t.val % 8 + 1) (after m c t) := by
  have h1 : ¬t.val % 8 = 7 := by omega
  have hk : t.val % 8 < 8 := Nat.mod_lt _ (by decide)
  rw [restart m c t h0 h1]
  refine ⟨fun r p => ?_, fun r u => ?_⟩
  · show k0_pay4 (wblk m c t) (xr m c t) (k0_pay1 (F := Ideal)) (ix2 r p) = _
    rw [pay4_apply, pay1_apply, block_prod m c t r p]
    refine add_block _ (t.val % 8) hk _ ?_
    rw [h0, Nat.mul_zero, upTo_zero, add_zero]
  · show k0_pay3 (wblk m c t) (k0_pay2 (F := Ideal)) (ix2 r u) = _
    rw [pay3_apply, pay2_apply, block_deg m c t r]
    refine add_block _ (t.val % 8) hk _ ?_
    rw [h0, Nat.mul_zero, upTo_zero, add_zero]

/-- A later column block: from the first 1024·k terms to the first 1024·(k+1). -/
theorem holds_step (c : Dev nD) (t : Fin cfg0.N) (h0 : ¬t.val % 8 = 0) (hb : Holds m c t (t.val % 8) (before m c t)) :
    Holds m c t (t.val % 8 + 1) (after m c t) := by
  have hk : t.val % 8 < 8 := Nat.mod_lt _ (by decide)
  have hs : after m c t = (k0_pay4 (wblk m c t) (xr m c t) (before m c t).1, k0_pay3 (wblk m c t) (before m c t).2) := by
    by_cases h1 : t.val % 8 = 7
    · exact step_last m c t h0 h1
    · exact step_mid m c t h0 h1
  rw [hs]
  refine ⟨fun r p => ?_, fun r u => ?_⟩
  · show k0_pay4 (wblk m c t) (xr m c t) (before m c t).1 (ix2 r p) = _
    rw [pay4_apply, block_prod m c t r p]
    exact add_block _ (t.val % 8) hk _ (hb.1 r p)
  · show k0_pay3 (wblk m c t) (before m c t).2 (ix2 r u) = _
    rw [pay3_apply, block_deg m c t r]
    exact add_block _ (t.val % 8) hk _ (hb.2 r u)

/-- After every point the accumulators hold the first 1024·(k+1) terms of their rows. -/
theorem holds_all (c : Dev nD) : ∀ (n : ℕ) (t : Fin cfg0.N), t.val = n → Holds m c t (t.val % 8 + 1) (after m c t) := by
  intro n
  induction n with
  | zero =>
    intro t ht
    exact holds_restart m c t (by omega)
  | succ n ih =>
    intro t ht
    by_cases h0 : t.val % 8 = 0
    · exact holds_restart m c t h0
    · refine holds_step m c t h0 ?_
      have hp := ih ⟨t.val - 1, Nat.lt_of_le_of_lt (Nat.sub_le _ _) t.isLt⟩ (by show t.val - 1 = n; omega)
      have hrow : ∀ r : Fin 2048, bigRow (t.val - 1) (by have := lt32 t; omega) r = bigRow t.val (lt32 t) r := fun r =>
        Fin.ext (by show 2048 * ((t.val - 1) / 8) + r.val = 2048 * (t.val / 8) + r.val; omega)
      have hcnt : (t.val - 1) % 8 + 1 = t.val % 8 := by omega
      refine ⟨fun r p => ?_, fun r u => ?_⟩
      · have := hp.1 r p
        rw [hcnt] at this
        rw [← hrow r]
        exact this
      · have := hp.2 r u
        rw [hcnt] at this
        rw [← hrow r]
        exact this

end Cert.KernelIdeal.AccumIdeal

end
-- ==== Proof.Spec.lean ====
/-
  The two programs as functions of the argument arrays, at the ideal instance, over the literal shapes.

  X is the [8192,128] array and W the [8192,8192] array, both of extended reals. Write d n for the n-th
  row sum of W, c for the constant 2.0 and e for the constant 1e-8 (each kept as its float word), and
  m = max (s / c) e where s is the sum of every entry of W.

  * The kernel pairs X with W·X row by row (s1 i = ∑ p, X i p * ∑ k, W i k * X k p), adds the rows up, and outside
    the call forms  -((∑ i, s1 i - (∑ p, dX p * dX p) / (c*m)) / (c*m))  with dX p = ∑ n, d n * X n p and
    s = ∑ n, d n.
  * The reference forms  -((∑ (i,p), X i p * ∑ k, (W i k - d i * d k / (c*m)) * X k p) / (c*m))  with s the
    sum of W over both axes at once.

  Every sum is written as the host reads it: the initial value (the zero word) plus the sum. The two
  functions agree when every entry of X and W is a real number (Proof/Bridge.lean).
-/
import Idealize.ShloMosaic.PureOps.Ideal
import Idealize.ShloMosaic.Lib.ValueIdx

noncomputable section

namespace Cert.Spec

open Idealize.ShloMosaic Idealize.ShloMosaic.ValueIdx

/-- The [8192,128] argument's index type and the [8192,8192] argument's. -/
abbrev IX : Type := (⟨2, ![8192, 128]⟩ : Shape).Idx
abbrev IW : Type := (⟨2, ![8192, 8192]⟩ : Shape).Idx

/-- The row and the column of an index of the [8192,128] array, as numbers below 8192 and below 128. -/
def row (j : IX) : Fin 8192 := ⟨(j 0).val, (j 0).isLt⟩
def col (j : IX) : Fin 128 := ⟨(j 1).val, (j 1).isLt⟩

theorem row_ix2 (i : Fin 8192) (p : Fin 128) : row (ix2 i p) = i := rfl
theorem col_ix2 (i : Fin 8192) (p : Fin 128) : col (ix2 i p) = p := rfl

/-- The float words the programs spell: +0.0, 2.0 and 1e-8 (as f32). -/
abbrev zero : EReal := Ideal.ofBits .f32 0x00000000#32
abbrev two : EReal := Ideal.ofBits .f32 0x40000000#32
abbrev eps : EReal := Ideal.ofBits .f32 0x322BCC77#32

/-- Row n's sum of W (a degree), as a sum over the columns. -/
def deg (W : IW → EReal) (n : Fin 8192) : EReal := zero + ∑ k : Fin 8192, W (ix2 n k)

/-- Twice the clamped half-weight, from a total s of W: c * max (s / c) e. -/
def scale (s : EReal) : EReal := two * max (Ideal.div s two) eps

/-- The kernel's total weight: the degrees added up. -/
def totalK (W : IW → EReal) : EReal := zero + ∑ n : Fin 8192, deg W n
/-- The reference's total weight: every entry of W, both axes at once. -/
def totalR (W : IW → EReal) : EReal := zero + ∑ j : IW, W j

/-- Entry (i,p) of W·X. -/
def wx (X : IX → EReal) (W : IW → EReal) (i : Fin 8192) (p : Fin 128) : EReal :=
  ∑ k : Fin 8192, W (ix2 i k) * X (ix2 k p)

/-- The kernel's per-row pairing of X with W·X. -/
def s1 (X : IX → EReal) (W : IW → EReal) (i : Fin 8192) : EReal :=
  zero + ∑ p : Fin 128, X (ix2 i p) * wx X W i p

/-- Column p of the degree-weighted sum of X's rows. -/
def dX (X : IX → EReal) (W : IW → EReal) (p : Fin 128) : EReal :=
  zero + ∑ n : Fin 8192, deg W n * X (ix2 n p)

/-- What the kernel returns. -/
def resultK (X : IX → EReal) (W : IW → EReal) : EReal :=
  -(Ideal.div ((zero + ∑ i : Fin 8192, s1 X W i)
      - Ideal.div (zero + ∑ p : Fin 128, dX X W p * dX X W p) (scale (totalK W))) (scale (totalK W)))

/-- Entry (i,k) of the reference's modularity matrix W - d dᵀ / (c*m). -/
def modEntry (W : IW → EReal) (i k : Fin 8192) : EReal :=
  W (ix2 i k) - Ideal.div (deg W i * deg W k) (scale (totalR W))

/-- What the reference returns. -/
def resultR (X : IX → EReal) (W : IW → EReal) : EReal :=
  -(Ideal.div (zero + ∑ j : IX, X j * ∑ k : Fin 8192, modEntry W (row j) k * X (ix2 k (col j))) (scale (totalR W)))

end Cert.Spec
-- ==== Proof.Arrays.lean ====
/-
  What the call's two [8192,1] result arrays hold when the run is over.

  Only the last column block of each row block writes a block back (grid points t with t % 8 = 7), and by then the
  accumulators have taken in all 8192 terms of their rows. So, with R = 2048·(t / 8) + r the row of the arrays that
  row r of the block is,
      the degree block at (r,0)  is  0w + ∑ q, W (R,q)                                 — the degree of R;
      the pairing block at (r,0) is  ∑ p, X (R,p) * (0w + ∑ q, W (R,q) * X (q,p)).
  Every row R of an [8192,1] array lies in the block written at the point 8·(R / 2048) + 7, so the whole array is
  given by these two functions of R.
-/
import proofs.«124940_j13434657702449_2_alg».proof.Proof.AccumIdeal
import proofs.«124940_j13434657702449_2_alg».proof.Proof.Spec

set_option maxRecDepth 16384

noncomputable section

open Idealize.ShloMosaic Idealize.ShloMosaic.TcCoe Idealize.ShloMosaic.Tactic Idealize.SL.Sem
open Idealize.ShloMosaic.Pipeline (Dat)

namespace Cert.KernelIdeal.Arrays
open Cert.KernelIdeal Cert.KernelIdeal.Gen

open Cert.KernelIdeal.Pieces Cert.KernelIdeal.Accum Cert.KernelIdeal.Blocks Cert.KernelIdeal.PayloadsIdeal Cert.KernelIdeal.AccumIdeal
open Idealize.ShloMosaic.ValueIdx Cert.BlockSum

variable (m : (ℓ : Loc nD τ sig) → Buf (Elt Ideal) ℓ)

/-- The row of an index of an [8192,1] array. -/
def rowOf (j : S8192x1.Idx) : Fin 8192 := ⟨(j 0).val, (j 0).isLt⟩

/-- The degree column and the pairing column, as functions of the index. -/
def degCol (c : Dev nD) : S8192x1.Idx → EReal := fun j => Cert.Spec.deg (Wa m c) (rowOf j)
def pairAt (c : Dev nD) (R : Fin 8192) : EReal :=
  ∑ p : Fin 128, Xa m c (ix2 R p) * (zw + ∑ q : Fin 8192, Wa m c (ix2 R q) * Xa m c (ix2 q p))
def pairCol (c : Dev nD) : S8192x1.Idx → EReal := fun j => pairAt m c (rowOf j)

/-- An index of a two-axis shape is the pair of its coordinates. -/
theorem idx_eta {a b : ℕ} (j : (⟨2, ![a, b]⟩ : Shape).Idx) :
    j = ix2 (⟨(j 0).val, (j 0).isLt⟩ : Fin a) (⟨(j 1).val, (j 1).isLt⟩ : Fin b) :=
  funext fun d => by match d with | ⟨0, _⟩ => rfl | ⟨1, _⟩ => rfl

/-- The accumulators after point t, at any index of their blocks. -/
theorem acc_at (c : Dev nD) (t : Fin cfg0.N) (r : Fin 2048) (p : Fin 128) :
    (after m c t).1 (ix2 r p) = zw + upTo (prodRow m c (bigRow t.val (lt32 t) r) p) (1024 * (t.val % 8 + 1)) :=
  (holds_all m c t.val t rfl).1 r p
theorem dacc_at (c : Dev nD) (t : Fin cfg0.N) (r : Fin 2048) (u : Fin 1) :
    (after m c t).2 (ix2 r u) = zw + upTo (degRow m c (bigRow t.val (lt32 t) r)) (1024 * (t.val % 8 + 1)) :=
  (holds_all m c t.val t rfl).2 r u

/-- At a last column block the degree accumulator holds the degree of its row. -/
theorem deg_block (c : Dev nD) (t : Fin cfg0.N) (h1 : t.val % 8 = 7) (r : Fin 2048) (u : Fin 1) :
    (after m c t).2 (ix2 r u) = Cert.Spec.deg (Wa m c) (bigRow t.val (lt32 t) r) := by
  rw [dacc_at, show 1024 * (t.val % 8 + 1) = 8192 by omega, upTo_all]
  rfl

/-- At a last column block the pairing of X's row block with the product accumulator is the pairing of its row. -/
theorem pair_block (c : Dev nD) (t : Fin cfg0.N) (h1 : t.val % 8 = 7) (r : Fin 2048) (u : Fin 1) :
    k0_pay5 (xblk m c t) (after m c t).1 (ix2 r u) = pairAt m c (bigRow t.val (lt32 t) r) := by
  rw [pay5_apply]
  unfold pairAt
  refine Finset.sum_congr rfl fun p _ => ?_
  rw [xblk_apply m c t r p, acc_at m c t r p, show 1024 * (t.val % 8 + 1) = 8192 by omega, upTo_all]
  rfl

/-- Where the two output windows' blocks sit: row block t / 8, the one column. -/
theorem idx_out : ∀ t : Fin cfg0.N, win0_3.index t 0 = t.val / 8 ∧ win0_3.index t 1 = 0
    ∧ win0_4.index t 0 = t.val / 8 ∧ win0_4.index t 1 = 0 := by decide +kernel

/-- Row r of point t's block is row 2048·(t/8) + r of the array (for either output window). -/
theorem row_emb3 (t : Fin cfg0.N) (j : S2048x1.Idx) :
    rowOf (((cfg0.win 3).blk t).view.emb j) = bigRow t.val (lt32 t) ⟨(j 0).val, (j 0).isLt⟩ :=
  Fin.ext (by show win0_3.index t 0 * 2048 + 1 * (j 0).val = 2048 * (t.val / 8) + (j 0).val; rw [(idx_out t).1]; omega)
theorem row_emb4 (t : Fin cfg0.N) (j : S2048x1.Idx) :
    rowOf (((cfg0.win 4).blk t).view.emb j) = bigRow t.val (lt32 t) ⟨(j 0).val, (j 0).isLt⟩ :=
  Fin.ext (by show win0_4.index t 0 * 2048 + 1 * (j 0).val = 2048 * (t.val / 8) + (j 0).val; rw [(idx_out t).2.2.1]; omega)

/-- What a write-back of the degree window writes is the block of the degree column. -/
theorem flushed3_eq (c : Dev nD) (t : Fin cfg0.N) (hf : (cfg0.win 3).flush t = true) :
    (dats m 0 c).flushed 3 t = ((cfg0.win 3).blk t).view.read (Elt Ideal) (degCol m c) := by
  have h1 : t.val % 8 = 7 := (flush0_3 t).mp hf
  have h0 : ¬t.val % 8 = 0 := by omega
  show (cfg0.win 3).cut (grid0.coords t) ((dats m 0 c).after 3 t) = _
  rw [after0_3, (outs_last m c t h0 h1).1]
  funext j
  show (after m c t).2 j = degCol m c (((cfg0.win 3).blk t).view.emb j)
  unfold degCol
  rw [row_emb3 t j, ← deg_block m c t h1 ⟨(j 0).val, (j 0).isLt⟩ ⟨(j 1).val, (j 1).isLt⟩]
  exact congrArg (after m c t).2 (idx_eta j)

/-- What a write-back of the pairing window writes is the block of the pairing column. -/
theorem flushed4_eq (c : Dev nD) (t : Fin cfg0.N) (hf : (cfg0.win 4).flush t = true) :
    (dats m 0 c).flushed 4 t = ((cfg0.win 4).blk t).view.read (Elt Ideal) (pairCol m c) := by
  have h1 : t.val % 8 = 7 := (flush0_4 t).mp hf
  have h0 : ¬t.val % 8 = 0 := by omega
  show (cfg0.win 4).cut (grid0.coords t) ((dats m 0 c).after 4 t) = _
  rw [after0_4, (outs_last m c t h0 h1).2]
  funext j
  show k0_pay5 (xblk m c t) (after m c t).1 j = pairCol m c (((cfg0.win 4).blk t).view.emb j)
  unfold pairCol
  rw [row_emb4 t j, ← pair_block m c t h1 ⟨(j 0).val, (j 0).isLt⟩ ⟨(j 1).val, (j 1).isLt⟩]
  exact congrArg (k0_pay5 (xblk m c t) (after m c t).1) (idx_eta j)

/-- An index of the array is in point t's block iff each coordinate is in the block's range on its axis. -/
theorem mem_blk3 (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v1_0).slice (win0_3.rect t)).set ↔ _
  rw [View.set_slice_whole, Rect.mem_set_unit]
  exact Iff.rfl
theorem mem_blk4 (t : Fin cfg0.N) (i : S8192x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v1_1).slice (win0_4.rect t)).set ↔ _
  rw [View.set_slice_whole, Rect.mem_set_unit]
  exact Iff.rfl

/-- The last column block of row block R / 2048. -/
def lastOf (i : S8192x1.Idx) : Fin cfg0.N :=
  ⟨8 * ((i 0).val / 2048) + 7, by rw [N32]; have h : (i 0).val < 8192 := (i 0).isLt; show 8 * ((i 0).val / 2048) + 7 < 32; omega⟩

theorem lastOf_val (i : S8192x1.Idx) : (lastOf i).val = 8 * ((i 0).val / 2048) + 7 := rfl

/-- Every index of the degree array is in the block written back at that point. -/
theorem cover3 (i : S8192x1.Idx) : ∃ t : Fin cfg0.N, (cfg0.win 3).flush t = true ∧ i ∈ ((cfg0.win 3).blk t).view.set := by
  refine ⟨lastOf i, (flush0_3 (lastOf i)).mpr (by rw [lastOf_val]; omega), ?_⟩
  rw [mem_blk3]
  have hi0 : (i 0).val < 8192 := (i 0).isLt
  have hi1 : (i 1).val < 1 := (i 1).isLt
  have e0 := (idx_out (lastOf i)).1
  have e1 := (idx_out (lastOf i)).2.1
  rw [lastOf_val] at e0
  intro a
  match a with
  | ⟨0, _⟩ => show win0_3.index (lastOf i) 0 * 2048 ≤ (i 0).val ∧ (i 0).val < win0_3.index (lastOf i) 0 * 2048 + 2048; rw [e0]; omega
  | ⟨1, _⟩ => show win0_3.index (lastOf i) 1 * 1 ≤ (i 1).val ∧ (i 1).val < win0_3.index (lastOf i) 1 * 1 + 1; rw [e1]; omega

/-- Every index of the pairing array is in the block written back at that point. -/
theorem cover4 (i : S8192x1.Idx) : ∃ t : Fin cfg0.N, (cfg0.win 4).flush t = true ∧ i ∈ ((cfg0.win 4).blk t).view.set := by
  refine ⟨lastOf i, (flush0_4 (lastOf i)).mpr (by rw [lastOf_val]; omega), ?_⟩
  rw [mem_blk4]
  have hi0 : (i 0).val < 8192 := (i 0).isLt
  have hi1 : (i 1).val < 1 := (i 1).isLt
  have e0 := (idx_out (lastOf i)).2.2.1
  have e1 := (idx_out (lastOf i)).2.2.2
  rw [lastOf_val] at e0
  intro a
  match a with
  | ⟨0, _⟩ => show win0_4.index (lastOf i) 0 * 2048 ≤ (i 0).val ∧ (i 0).val < win0_4.index (lastOf i) 0 * 2048 + 2048; rw [e0]; omega
  | ⟨1, _⟩ => show win0_4.index (lastOf i) 1 * 1 ≤ (i 1).val ∧ (i 1).val < win0_4.index (lastOf i) 1 * 1 + 1; rw [e1]; omega

/-- The degree array after the run is the degree column; the pairing array the pairing column. -/
theorem final3 (c : Dev nD) : (dats m 0 c).arrAt 3 cfg0.N = degCol m c :=
  (dats m 0 c).arrAt_eq_of_cover 3 (degCol m c) (fun t hf => flushed3_eq m c t hf) (cover3)
theorem final4 (c : Dev nD) : (dats m 0 c).arrAt 4 cfg0.N = pairCol m c :=
  (dats m 0 c).arrAt_eq_of_cover 4 (pairCol m c) (fun t hf => flushed4_eq m c t hf) (cover4)

end Cert.KernelIdeal.Arrays

end
-- ==== Proof.TailValue.lean ====
/-
  The host operations after the call, read as one scalar formula.

  The call returns two [8192,1] columns, d (the row sums of W) and s (each row's pairing of X with W·X).
  After it the program flattens d to a vector, adds up s, adds up d, halves and clamps that total
  (m = max (total / c) e, with c the constant 2.0 and e the constant 1e-8), spreads d over the [8192,128]
  shape, multiplies by X entry by entry, adds the rows up column by column, squares each column's sum, adds
  the squares, divides by c*m, subtracts the quotient from the sum of s, divides by c*m once more and negates.

  The operations are written down one by one, in program order and with the program's own spelling, and
  composed; each lemma then says what one of them holds at an index given by its coordinates. It is a
  rearrangement throughout: every sum stays "the initial value plus the sum", every float word stays a
  word, no factors are swapped, and nothing is evaluated. The only re-indexing is of the index sets: a sum
  over all of [8192,1] is the sum over the rows of the entry in column 0, and a sum along an axis is the sum
  over that axis's coordinate.
-/
import proofs.«124940_j13434657702449_2_alg».proof.Proof.Gen.KernelIdeal
import proofs.«124940_j13434657702449_2_alg».proof.Proof.Spec
import proofs.«124940_j13434657702449_2_alg».proof.Proof.LibVectorColumn
import Idealize.ShloMosaic.PureOps.Ideal.Laws
import Idealize.ShloMosaic.Lib.Pipeline.Value
import Idealize.ShloMosaic.Lib.ValueIdx

noncomputable section

namespace Cert.KernelIdeal.TailValue

open Cert.KernelIdeal Cert.KernelIdeal.Facts₀ Idealize.ShloMosaic Idealize.ShloMosaic.ValueIdx

/-! ## The operations, in program order -/

/-- The column d flattened to a vector. -/
def v2 (d : (⟨S8192x1, .f32⟩ : BufTy).Contents (Elt Ideal)) : (⟨S8192, .f32⟩ : BufTy).Contents (Elt Ideal) :=
  shapeCast S8192 d shapeCasts_S8192x1_S8192
/-- The sum of every entry of s, from the zero word. -/
def v3 (s : (⟨S8192x1, .f32⟩ : BufTy).Contents (Elt Ideal)) : (⟨S_, .f32⟩ : BufTy).Contents (Elt Ideal) :=
  Host.reduceAdd (F := Ideal) s (constant (F := Ideal) S_ .f32 0x00000000#32) reducesTo_S8192x1_S_d0_1 h_S_
/-- The sum of the vector d, from the zero word. -/
def v4 (d : (⟨S8192x1, .f32⟩ : BufTy).Contents (Elt Ideal)) : (⟨S_, .f32⟩ : BufTy).Contents (Elt Ideal) :=
  Host.reduceAdd (F := Ideal) (v2 d) (constant (F := Ideal) S_ .f32 0x00000000#32) reducesTo_S8192_S_d0 h_S_
/-- That total divided by c. -/
def v5 (d : (⟨S8192x1, .f32⟩ : BufTy).Contents (Elt Ideal)) : (⟨S_, .f32⟩ : BufTy).Contents (Elt Ideal) :=
  Host.divf (F := Ideal) (s := S_) (φ := .f32) (v4 d) (constant (F := Ideal) S_ .f32 0x40000000#32)
/-- The quotient clamped from below by e: m. -/
def v6 (d : (⟨S8192x1, .f32⟩ : BufTy).Contents (Elt Ideal)) : (⟨S_, .f32⟩ : BufTy).Contents (Elt Ideal) :=
  maximumf (F := Ideal) (s := S_) (φ := .f32) (v5 d) (constant (F := Ideal) S_ .f32 0x322BCC77#32)
/-- The vector d stood up as a column again … -/
def v7 (d : (⟨S8192x1, .f32⟩ : BufTy).Contents (Elt Ideal)) : (⟨S8192x1, .f32⟩ : BufTy).Contents (Elt Ideal) :=
  broadcastInDim S8192x1 ![0] bcast_S8192_S8192x1_0 (v2 d)
/-- … and spread along the rows of the [8192,128] shape. -/
def v8 (d : (⟨S8192x1, .f32⟩ : BufTy).Contents (Elt Ideal)) : (⟨S8192x128, .f32⟩ : BufTy).Contents (Elt Ideal) :=
  broadcastInDim S8192x128 ![0, 1] bcast_S8192x1_S8192x128_0_1 (v7 d)
/-- Row n of X weighted by d n. -/
def v9 (d : (⟨S8192x1, .f32⟩ : BufTy).Contents (Elt Ideal)) (X : (⟨S8192x128, .f32⟩ : BufTy).Contents (Elt Ideal)) : (⟨S8192x128, .f32⟩ : BufTy).Contents (Elt Ideal) :=
  mulf (F := Ideal) (s := S8192x128) (φ := .f32) (v8 d) X
/-- The weighted rows added up, column by column, from the zero word. -/
def v10 (d : (⟨S8192x1, .f32⟩ : BufTy).Contents (Elt Ideal)) (X : (⟨S8192x128, .f32⟩ : BufTy).Contents (Elt Ideal)) : (⟨S128, .f32⟩ : BufTy).Contents (Elt Ideal) :=
  Host.reduceAdd (F := Ideal) (v9 d X) (constant (F := Ideal) S_ .f32 0x00000000#32) reducesTo_S8192x128_S128_d0 h_S_
/-- Each column's sum squared. -/
def v11 (d : (⟨S8192x1, .f32⟩ : BufTy).Contents (Elt Ideal)) (X : (⟨S8192x128, .f32⟩ : BufTy).Contents (Elt Ideal)) : (⟨S128, .f32⟩ : BufTy).Contents (Elt Ideal) :=
  mulf (F := Ideal) (s := S128) (φ := .f32) (v10 d X) (v10 d X)
/-- The squares added up, from the zero word. -/
def v12 (d : (⟨S8192x1, .f32⟩ : BufTy).Contents (Elt Ideal)) (X : (⟨S8192x128, .f32⟩ : BufTy).Contents (Elt Ideal)) : (⟨S_, .f32⟩ : BufTy).Contents (Elt Ideal) :=
  Host.reduceAdd (F := Ideal) (v11 d X) (constant (F := Ideal) S_ .f32 0x00000000#32) reducesTo_S128_S_d0 h_S_
/-- c*m, as the sum of squares is divided by it. -/
def v13 (d : (⟨S8192x1, .f32⟩ : BufTy).Contents (Elt Ideal)) : (⟨S_, .f32⟩ : BufTy).Contents (Elt Ideal) :=
  mulf (F := Ideal) (constant (F := Ideal) S_ .f32 0x40000000#32) (v6 d)
/-- The sum of squares over c*m. -/
def v14 (d : (⟨S8192x1, .f32⟩ : BufTy).Contents (Elt Ideal)) (X : (⟨S8192x128, .f32⟩ : BufTy).Contents (Elt Ideal)) : (⟨S_, .f32⟩ : BufTy).Contents (Elt Ideal) :=
  Host.divf (F := Ideal) (s := S_) (φ := .f32) (v12 d X) (v13 d)
/-- The sum of s less that quotient. -/
def v15 (d : (⟨S8192x1, .f32⟩ : BufTy).Contents (Elt Ideal)) (s : (⟨S8192x1, .f32⟩ : BufTy).Contents (Elt Ideal)) (X : (⟨S8192x128, .f32⟩ : BufTy).Contents (Elt Ideal)) : (⟨S_, .f32⟩ : BufTy).Contents (Elt Ideal) :=
  subf (F := Ideal) (s := S_) (φ := .f32) (v3 s) (v14 d X)
/-- c*m, spelt a second time, as the difference is divided by it. -/
def v16 (d : (⟨S8192x1, .f32⟩ : BufTy).Contents (Elt Ideal)) : (⟨S_, .f32⟩ : BufTy).Contents (Elt Ideal) :=
  mulf (F := Ideal) (constant (F := Ideal) S_ .f32 0x40000000#32) (v6 d)
/-- The difference over c*m. -/
def v17 (d : (⟨S8192x1, .f32⟩ : BufTy).Contents (Elt Ideal)) (s : (⟨S8192x1, .f32⟩ : BufTy).Contents (Elt Ideal)) (X : (⟨S8192x128, .f32⟩ : BufTy).Contents (Elt Ideal)) : (⟨S_, .f32⟩ : BufTy).Contents (Elt Ideal) :=
  Host.divf (F := Ideal) (s := S_) (φ := .f32) (v15 d s X) (v16 d)
/-- Its negation: what the program returns. -/
def v18 (d : (⟨S8192x1, .f32⟩ : BufTy).Contents (Elt Ideal)) (s : (⟨S8192x1, .f32⟩ : BufTy).Contents (Elt Ideal)) (X : (⟨S8192x128, .f32⟩ : BufTy).Contents (Elt Ideal)) : (⟨S_, .f32⟩ : BufTy).Contents (Elt Ideal) :=
  Host.negf (F := Ideal) (s := S_) (φ := .f32) (v17 d s X)

/-- The host operations after the call, composed in program order, as a function of the call's two [8192,1]
    results and of X. -/
def tailTerm (d s : (⟨S8192x1, .f32⟩ : BufTy).Contents (Elt Ideal)) (X : (⟨S8192x128, .f32⟩ : BufTy).Contents (Elt Ideal)) :
    (⟨S_, .f32⟩ : BufTy).Contents (Elt Ideal) :=
  v18 d s X

/-- Column p of the d-weighted sum of X's rows. -/
def colsum (d : (⟨S8192x1, .f32⟩ : BufTy).Contents (Elt Ideal)) (X : (⟨S8192x128, .f32⟩ : BufTy).Contents (Elt Ideal)) (p : Fin 128) : EReal :=
  Cert.Spec.zero + ∑ n : Fin 8192, d (ix2 n (0 : Fin 1)) * X (ix2 n p)

/-! ## The operations that act entry by entry -/

theorem v5_apply (d : (⟨S8192x1, .f32⟩ : BufTy).Contents (Elt Ideal)) (i : S_.Idx) : v5 d i = Ideal.div (v4 d i) Cert.Spec.two := rfl
theorem v6_apply (d : (⟨S8192x1, .f32⟩ : BufTy).Contents (Elt Ideal)) (i : S_.Idx) : v6 d i = max (v5 d i) Cert.Spec.eps := rfl
theorem v9_apply (d : (⟨S8192x1, .f32⟩ : BufTy).Contents (Elt Ideal)) (X : (⟨S8192x128, .f32⟩ : BufTy).Contents (Elt Ideal)) (j : S8192x128.Idx) : v9 d X j = v8 d j * X j := rfl
theorem v11_apply (d : (⟨S8192x1, .f32⟩ : BufTy).Contents (Elt Ideal)) (X : (⟨S8192x128, .f32⟩ : BufTy).Contents (Elt Ideal)) (j : S128.Idx) : v11 d X j = v10 d X j * v10 d X j := rfl
theorem v13_apply (d : (⟨S8192x1, .f32⟩ : BufTy).Contents (Elt Ideal)) (i : S_.Idx) : v13 d i = Cert.Spec.two * v6 d i := rfl
theorem v14_apply (d : (⟨S8192x1, .f32⟩ : BufTy).Contents (Elt Ideal)) (X : (⟨S8192x128, .f32⟩ : BufTy).Contents (Elt Ideal)) (i : S_.Idx) : v14 d X i = Ideal.div (v12 d X i) (v13 d i) := rfl
theorem v15_apply (d : (⟨S8192x1, .f32⟩ : BufTy).Contents (Elt Ideal)) (s : (⟨S8192x1, .f32⟩ : BufTy).Contents (Elt Ideal)) (X : (⟨S8192x128, .f32⟩ : BufTy).Contents (Elt Ideal)) (i : S_.Idx) : v15 d s X i = v3 s i - v14 d X i := rfl
theorem v16_apply (d : (⟨S8192x1, .f32⟩ : BufTy).Contents (Elt Ideal)) (i : S_.Idx) : v16 d i = Cert.Spec.two * v6 d i := rfl
theorem v17_apply (d : (⟨S8192x1, .f32⟩ : BufTy).Contents (Elt Ideal)) (s : (⟨S8192x1, .f32⟩ : BufTy).Contents (Elt Ideal)) (X : (⟨S8192x128, .f32⟩ : BufTy).Contents (Elt Ideal)) (i : S_.Idx) :
    v17 d s X i = Ideal.div (v15 d s X i) (v16 d i) := rfl
theorem v18_apply (d : (⟨S8192x1, .f32⟩ : BufTy).Contents (Elt Ideal)) (s : (⟨S8192x1, .f32⟩ : BufTy).Contents (Elt Ideal)) (X : (⟨S8192x128, .f32⟩ : BufTy).Contents (Elt Ideal)) (i : S_.Idx) : v18 d s X i = -(v17 d s X i) := rfl

/-! ## The layout operations, by coordinates -/

/-- The flattened column at n is the column's entry (n,0): the two have the same row-major position. -/
theorem v2_apply (d : (⟨S8192x1, .f32⟩ : BufTy).Contents (Elt Ideal)) (n : Fin 8192) : v2 d (ix1 n) = d (ix2 n (0 : Fin 1)) :=
  shapeCast_apply d shapeCasts_S8192x1_S8192 (ix1 n) (ix2 n (0 : Fin 1)) (by
    rw [Shape.rowMajor_val_two, Shape.rowMajor_val_one]
    show n.val * 1 + 0 = n.val
    omega)

/-- Stood up as a column again, the entry at (n,u) is the vector's entry n. -/
theorem v7_apply (d : (⟨S8192x1, .f32⟩ : BufTy).Contents (Elt Ideal)) (n : Fin 8192) (u : Fin 1) : v7 d (ix2 n u) = v2 d (ix1 n) :=
  Cert.LibVectorColumn.broadcastInDim_a_a1_apply (v2 d) bcast_S8192_S8192x1_0 n u

/-- Spread along the rows, the entry at (n,p) is the column's entry (n,0). -/
theorem v8_apply (d : (⟨S8192x1, .f32⟩ : BufTy).Contents (Elt Ideal)) (n : Fin 8192) (p : Fin 128) : v8 d (ix2 n p) = d (ix2 n (0 : Fin 1)) := by
  have e : v8 d (ix2 n p) = v7 d (ix2 n (0 : Fin 1)) := by
    unfold v8
    generalize v7 d = y
    exact broadcastInDim_apply _ bcast_S8192x1_S8192x128_0_1 y (ix2 n p) (ix2 n (0 : Fin 1)) (fun a => match a with
      | ⟨0, _⟩ => by show n.val = if (8192 : Nat) = 1 then 0 else n.val; rw [if_neg (by decide)]
      | ⟨1, _⟩ => by show (0 : Nat) = if (1 : Nat) = 1 then 0 else p.val; rw [if_pos rfl])
  rw [e, v7_apply, v2_apply]

/-! ## The sums -/

/-- A rank-1 index set is its one coordinate's range, so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (⟨fun a => ix1 a, fun i => i 0, fun _ => rfl, fun i => (eq_ix1 i).symm⟩ :
    Fin n ≃ (⟨1, ![n]⟩ : Shape).Idx) f).symm

/-- The sum of every entry of s is the sum over the rows of the entry in column 0. -/
theorem v3_apply (s : (⟨S8192x1, .f32⟩ : BufTy).Contents (Elt Ideal)) (i : S_.Idx) :
    v3 s i = Cert.Spec.zero + ∑ n : Fin 8192, s (ix2 n (0 : Fin 1)) := by
  unfold v3
  simp only [Host.reduceAdd, Ideal.hostReduceAdd_def]
  rw [Ideal.hostReduceAdd_total reducesTo_S8192x1_S_d0_1 (fun b => b.elim0)]
  exact congrArg₂ (· + ·) rfl ((sum_idx2 s).trans (Finset.sum_congr rfl fun n _ => Fin.sum_univ_one _))

/-- The total of d: the sum of the flattened column, entry by entry. -/
theorem v4_apply (d : (⟨S8192x1, .f32⟩ : BufTy).Contents (Elt Ideal)) (i : S_.Idx) :
    v4 d i = Cert.Spec.zero + ∑ n : Fin 8192, d (ix2 n (0 : Fin 1)) := by
  unfold v4
  simp only [Host.reduceAdd, Ideal.hostReduceAdd_def]
  rw [Ideal.hostReduceAdd_total reducesTo_S8192_S_d0 (fun b => b.elim0)]
  exact congrArg₂ (· + ·) rfl ((sum_idx1 (v2 d)).trans (Finset.sum_congr rfl fun n _ => v2_apply d n))

/-- Entry (n,p) of the weighted rows: d n times X's entry (n,p), in that order. -/
theorem v9_at (d : (⟨S8192x1, .f32⟩ : BufTy).Contents (Elt Ideal)) (X : (⟨S8192x128, .f32⟩ : BufTy).Contents (Elt Ideal)) (n : Fin 8192) (p : Fin 128) :
    v9 d X (ix2 n p) = d (ix2 n (0 : Fin 1)) * X (ix2 n p) := by
  rw [v9_apply, v8_apply]

/-- Column p of the weighted rows added up. -/
theorem v10_apply (d : (⟨S8192x1, .f32⟩ : BufTy).Contents (Elt Ideal)) (X : (⟨S8192x128, .f32⟩ : BufTy).Contents (Elt Ideal)) (p : Fin 128) : v10 d X (ix1 p) = colsum d X p := by
  unfold v10 colsum
  simp only [Host.reduceAdd, Ideal.hostReduceAdd_def]
  rw [Ideal.hostReduceAdd_single reducesTo_S8192x128_S128_d0 (by decide)]
  refine congrArg₂ (· + ·) rfl (Finset.sum_congr rfl fun (n : Fin 8192) _ => ?_)
  exact (congrArg (v9 d X) (funext fun a => Fin.ext (by match a with | ⟨0, _⟩ => rfl | ⟨1, _⟩ => rfl))).trans
    (v9_at d X n p)

/-- The square of column p's sum. -/
theorem v11_at (d : (⟨S8192x1, .f32⟩ : BufTy).Contents (Elt Ideal)) (X : (⟨S8192x128, .f32⟩ : BufTy).Contents (Elt Ideal)) (p : Fin 128) : v11 d X (ix1 p) = colsum d X p * colsum d X p := by
  rw [v11_apply, v10_apply]

/-- The squares added up over the columns. -/
theorem v12_apply (d : (⟨S8192x1, .f32⟩ : BufTy).Contents (Elt Ideal)) (X : (⟨S8192x128, .f32⟩ : BufTy).Contents (Elt Ideal)) (i : S_.Idx) :
    v12 d X i = Cert.Spec.zero + ∑ p : Fin 128, colsum d X p * colsum d X p := by
  unfold v12
  simp only [Host.reduceAdd, Ideal.hostReduceAdd_def]
  rw [Ideal.hostReduceAdd_total reducesTo_S128_S_d0 (fun b => b.elim0)]
  exact congrArg₂ (· + ·) rfl ((sum_idx1 (v11 d X)).trans (Finset.sum_congr rfl fun p _ => v11_at d X p))

/-! ## The clamp and the scale -/

/-- m, from the total of d: max (total / c) e. -/
theorem clamp_apply (d : (⟨S8192x1, .f32⟩ : BufTy).Contents (Elt Ideal)) (i : S_.Idx) :
    v6 d i = max (Ideal.div (Cert.Spec.zero + ∑ n : Fin 8192, d (ix2 n (0 : Fin 1))) Cert.Spec.two) Cert.Spec.eps := by
  rw [v6_apply, v5_apply, v4_apply]

/-- c*m as the sum of squares is divided by it … -/
theorem scale_inner (d : (⟨S8192x1, .f32⟩ : BufTy).Contents (Elt Ideal)) (i : S_.Idx) :
    v13 d i = Cert.Spec.scale (Cert.Spec.zero + ∑ n : Fin 8192, d (ix2 n (0 : Fin 1))) := by
  rw [v13_apply, clamp_apply]
  rfl

/-- … and as the difference is divided by it: the same number. -/
theorem scale_outer (d : (⟨S8192x1, .f32⟩ : BufTy).Contents (Elt Ideal)) (i : S_.Idx) :
    v16 d i = Cert.Spec.scale (Cert.Spec.zero + ∑ n : Fin 8192, d (ix2 n (0 : Fin 1))) := by
  rw [v16_apply, clamp_apply]
  rfl

/-! ## The result -/

/-- The host operations after the call return, wherever the scalar is read,
    -((∑ s - (∑ p, (colsum p)²) / (c*m)) / (c*m)) with m clamped from the total of d. -/
theorem tail_apply (d s : (⟨S8192x1, .f32⟩ : BufTy).Contents (Elt Ideal)) (X : (⟨S8192x128, .f32⟩ : BufTy).Contents (Elt Ideal)) (i : S_.Idx) :
    tailTerm d s X i
      = -(Ideal.div ((Cert.Spec.zero + ∑ n : Fin 8192, s (ix2 n (0 : Fin 1)))
            - Ideal.div (Cert.Spec.zero + ∑ p : Fin 128, colsum d X p * colsum d X p)
                (Cert.Spec.scale (Cert.Spec.zero + ∑ n : Fin 8192, d (ix2 n (0 : Fin 1)))))
          (Cert.Spec.scale (Cert.Spec.zero + ∑ n : Fin 8192, d (ix2 n (0 : Fin 1))))) := by
  unfold tailTerm
  rw [v18_apply, v17_apply, v15_apply, v14_apply, v3_apply, v12_apply, scale_inner, scale_outer]

end Cert.KernelIdeal.TailValue

end
-- ==== Proof.Consts.lean ====
/-
  The float words the two programs and the precondition spell, as the extended reals they denote at the ideal
  instance: +0.0 is 0, 2.0 is the real 2, the f32 nearest 1e-8 is a positive real (11258999 · 2⁻⁵⁰; only its sign
  is used), and the infinity word is +∞.
  One module unfolds the pattern reader, so that the others read their constants here.
-/
import Idealize.ShloMosaic.PureOps.Ideal

noncomputable section

namespace Cert.Consts

open Idealize.ShloMosaic

/-- The word of +0.0 denotes 0. -/
theorem ofBits_zero : Ideal.ofBits .f32 0x00000000#32 = 0 := by
  simp [Ideal.ofBits, Ideal.ieee]

/-- The word of 2.0 denotes the real 2. -/
theorem ofBits_two : Ideal.ofBits .f32 0x40000000#32 = ((2 : ℝ) : EReal) := by
  simp [Ideal.ofBits, Ideal.ieee, -EReal.coe_mul]; norm_num

/-- The word of the f32 nearest 1e-8 denotes a positive real. -/
theorem ofBits_eps : ∃ e : ℝ, 0 < e ∧ Ideal.ofBits .f32 0x322BCC77#32 = (e : EReal) := by
  refine ⟨(1 : ℝ) * ((2 ^ 23 + 2870391 : ℕ) : ℝ) * (2 : ℝ) ^ ((100 : ℤ) - (2 ^ (8 - 1) - 1 : ℤ) - (23 : ℕ)), by positivity, ?_⟩
  simp [Ideal.ofBits, Ideal.ieee, -EReal.coe_mul]

/-- The all-ones-exponent, zero-fraction word denotes +∞ (the bound every finite input lies strictly below in absolute value). -/
theorem ofBits_inf : Ideal.ofBits .f32 0x7F800000#32 = ⊤ := by
  simp [Ideal.ofBits, Ideal.ieee]

end Cert.Consts

end
-- ==== Proof.KernelResult.lean ====
/-
  The scalar the host operations after the call compute from the two result columns is the specification's
  kernel-shaped function of X and W.

  The degree column's entry (n,0) is the degree of n, and the pairing column's is
  ∑ p, X (n,p) * (0w + ∑ q, W (n,q) * X (q,p)). The specification writes the per-row pairing with its zero word
  outside the sum over p instead of inside the product; the zero word denotes 0, so the two are the same number.
  Everything else matches term for term: the total of the degrees, the clamped scale, the degree-weighted column
  sums of X.
-/
import proofs.«124940_j13434657702449_2_alg».proof.Proof.Arrays
import proofs.«124940_j13434657702449_2_alg».proof.Proof.TailValue
import proofs.«124940_j13434657702449_2_alg».proof.Proof.Consts

set_option maxRecDepth 16384

noncomputable section

open Idealize.ShloMosaic Idealize.ShloMosaic.TcCoe Idealize.ShloMosaic.Tactic Idealize.SL.Sem
open Idealize.ShloMosaic.Pipeline (Dat)

namespace Cert.KernelIdeal.KernelResult
open Cert.KernelIdeal Cert.KernelIdeal.Gen

open Cert.KernelIdeal.AccumIdeal Cert.KernelIdeal.Arrays Cert.KernelIdeal.TailValue Idealize.ShloMosaic.ValueIdx

variable (m : (ℓ : Loc nD τ sig) → Buf (Elt Ideal) ℓ)

/-- The degree column at (n,0) is the degree of n. -/
theorem degCol_at (c : Dev nD) (n : Fin 8192) : degCol m c (ix2 n (0 : Fin 1)) = Cert.Spec.deg (Wa m c) n := rfl

/-- The pairing column at (n,0) is the specification's per-row pairing. -/
theorem pairCol_at (c : Dev nD) (n : Fin 8192) :
    Cert.Spec.zero + pairCol m c (ix2 n (0 : Fin 1)) = Cert.Spec.zero + Cert.Spec.s1 (Xa m c) (Wa m c) n := by
  have hz : Cert.Spec.zero = 0 := Cert.Consts.ofBits_zero
  show Cert.Spec.zero + pairAt m c n = _
  unfold pairAt Cert.Spec.s1 Cert.Spec.wx
  rw [show zw = 0 from Cert.Consts.ofBits_zero, hz]
  simp only [zero_add]

/-- The tail's scalar at the two columns is the kernel-shaped function of the arguments. -/
theorem tail_is_resultK (c : Dev nD) (i : S_.Idx) :
    tailTerm (degCol m c) (pairCol m c) (Xa m c) i = Cert.Spec.resultK (Xa m c) (Wa m c) := by
  have hz : Cert.Spec.zero = 0 := Cert.Consts.ofBits_zero
  have hs : (Cert.Spec.zero + ∑ n : Fin 8192, pairCol m c (ix2 n (0 : Fin 1)))
      = Cert.Spec.zero + ∑ n : Fin 8192, Cert.Spec.s1 (Xa m c) (Wa m c) n := by
    refine congrArg (Cert.Spec.zero + ·) (Finset.sum_congr rfl fun n _ => ?_)
    have := pairCol_at m c n
    rwa [hz, zero_add, zero_add] at this
  rw [tail_apply, hs]
  rfl

end Cert.KernelIdeal.KernelResult

end
-- ==== Proof.KernelValue.lean ====
/-
  The idealized kernel's run, read: it ends with the scalar result at the specification's kernel-shaped function of
  the two argument arrays, and with the arguments unchanged.

  After the call the host operations read three arrays: the call's degree column, its pairing column, and X. The
  first two are what the last column blocks wrote back (the degree of each row; each row's pairing of X with W·X),
  and X is as launched. The operations then compute one scalar from them, which is that function.
-/
import proofs.«124940_j13434657702449_2_alg».proof.Proof.KernelResult
import Idealize.ShloMosaic.Lib.StableHlo.Run

set_option maxRecDepth 16384

noncomputable section

open Idealize.ShloMosaic Idealize.ShloMosaic.TcCoe Idealize.ShloMosaic.Tactic Idealize.SL.Sem
open Idealize.ShloMosaic.Pipeline (Dat)

namespace Cert.KernelIdeal.KernelValue
open Cert.KernelIdeal Cert.KernelIdeal.Gen

open Cert.KernelIdeal.AccumIdeal Cert.KernelIdeal.Arrays Cert.KernelIdeal.TailValue Cert.KernelIdeal.KernelResult

variable (m : (ℓ : Loc nD τ sig) → Buf (Elt Ideal) ℓ) (ρ : Dev nD → PrngReg)

/-- A buffer as the host operations after the call find it: a window's array at what the run left in it. -/
abbrev leaf (c : Dev nD) (b : Ref sig .tc) :=
  Pipeline.withArrays (cfgs 0).spec c (V0 m c) (fun w => (dats m 0 c).arrAt w (cfgs 0).N) (Proc.devRef .tc b)

/-- The degree array, the pairing array and X after the call. -/
theorem leaf_deg (c : Dev nD) : leaf m c main_v1_0 = degCol m c :=
  (Pipeline.withArrays_arr spec0 launch0.win.arr_inj c _ _ 3).trans (final3 m c)
theorem leaf_pair (c : Dev nD) : leaf m c main_v1_1 = pairCol m c :=
  (Pipeline.withArrays_arr spec0 launch0.win.arr_inj c _ _ 4).trans (final4 m c)
theorem leaf_X (c : Dev nD) : leaf m c main_arg0 = Xa m c :=
  (Pipeline.withArrays_arr spec0 launch0.win.arr_inj c _ _ 2).trans
    (((dats m 0 c).arrAt_in 2 rfl _).trans ((A_eq m c 2).trans (V_main_arg0 m c)))

set_option maxHeartbeats 2000000 in
/-- The scalar the host operations after the call leave in the result buffer. -/
theorem result_value (c : Dev nD) :
    Pipeline.afterTail₀ cfgs (dats m) 0 (V0 m) [hostOps1] c main_v18
      = fun _ => Cert.Spec.resultK (Xa m c) (Wa m c) := by
  unfold Pipeline.afterTail₀
  show StableHlo.after hostOps1 _ (Proc.devRef .tc main_v18) = _
  after_results
  show tailTerm (leaf m c main_v1_0) (leaf m c main_v1_1) (leaf m c main_arg0) = _
  rw [leaf_deg, leaf_pair, leaf_X]
  funext i
  exact tail_is_resultK m c i

/-- Every weakly fair execution terminates with the result at that scalar and the two arguments unchanged. -/
theorem run : θ_run defs (onTc (τ := τ) (main (F := Ideal))) ⟨m, fun _ => 0, ρ⟩ fun r => ∀ c : Dev nD,
      r.2.mem ((c.tc : Thread nD τ).loc main_v18) = (fun _ => Cert.Spec.resultK (Xa m c) (Wa m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v18 (by decide)).trans (result_value m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c)))⟩)
    (run_main m ρ)

end Cert.KernelIdeal.KernelValue

end
-- ==== Proof.RefValue.lean ====
/-
  The reference program's result is the specification's reference-shaped function.

  Write X for the [8192,128] argument and W for the [8192,8192] one. The reference sums each row of W (the
  degrees d), spreads d along the rows and along the columns of an [8192,8192] array, multiplies the two,
  divides by c*m (m the clamped half of the total of W, c the constant 2.0) and subtracts the quotient from
  W; it contracts that difference with X over the shared axis, pairs the product with X entry by entry, adds
  every entry up, divides by c*m once more and negates.

  Each lemma below says what one group of those operations holds at an index given by its coordinates. It is
  a rearrangement throughout: every sum stays "the initial value plus the sum", every float word stays a
  word, and nothing is evaluated.
-/
import proofs.«124940_j13434657702449_2_alg».proof.Proof.Gen.ReferenceIdeal.Read
import proofs.«124940_j13434657702449_2_alg».proof.Proof.Spec

noncomputable section

namespace Cert.ReferenceIdeal.RefValue

open Cert.ReferenceIdeal Cert.ReferenceIdeal.Read Idealize.ShloMosaic Idealize.ShloMosaic.ValueIdx

/-! ## Where each layout operation reads, by coordinates -/

/-- Term k of row n's sum is W's entry (n,k). -/
theorem idx_rowsum (n k : Fin 8192) : idx_main_v3 (ix1 n) k = ix2 n k :=
  funext fun a => Fin.ext (by match a with | ⟨0, _⟩ => rfl | ⟨1, _⟩ => rfl)

/-- The degrees spread along the rows: entry (i,k) reads degree i. -/
theorem idx_spread_row (i k : Fin 8192) : idx_main_v4 (idx_main_v6 (ix2 i k)) = ix1 i :=
  funext fun a => Fin.ext (by match a with | ⟨0, _⟩ => rfl)

/-- The degrees spread along the columns: entry (i,k) reads degree k. -/
theorem idx_spread_col (i k : Fin 8192) : idx_main_v5 (idx_main_v7 (ix2 i k)) = ix1 k :=
  funext fun a => Fin.ext (by match a with | ⟨0, _⟩ => rfl)

/-- Term k of the contraction at result index j takes the left operand at (row of j, k) … -/
theorem idx_dot_left (j : S8192x128.Idx) (k : Fin 8192) :
    lidx_main_v13 j k = ix2 (Cert.Spec.row j) k :=
  funext fun a => Fin.ext (by match a with | ⟨0, _⟩ => rfl | ⟨1, _⟩ => rfl)

/-- … and the right operand, X, at (k, column of j). -/
theorem idx_dot_right (j : S8192x128.Idx) (k : Fin 8192) :
    ridx_main_v13 j k = ix2 k (Cert.Spec.col j) :=
  funext fun a => Fin.ext (by match a with | ⟨0, _⟩ => rfl | ⟨1, _⟩ => rfl)

/-! ## The degrees -/

/-- Row n's sum of W is the degree of n. -/
theorem deg_at (W : (⟨S8192x8192, .f32⟩ : BufTy).Contents (Elt Ideal)) (n : Fin 8192) :
    val_main_v3 (F := Ideal) W (ix1 n) = Cert.Spec.deg W n := by
  rw [val_main_v3_apply, val_main_cst_2_apply]
  simp only [Ideal.ofBits_def, idx_rowsum]
  rfl

/-! ## The total weight, clamped, and twice it -/

/-- The total of W over both axes, halved and clamped from below: m = max (s / c) e. -/
theorem clamp_at (W : (⟨S8192x8192, .f32⟩ : BufTy).Contents (Elt Ideal)) (i : S_.Idx) :
    val_main_v2 (F := Ideal) W i
      = max (Ideal.div (Cert.Spec.totalR W) Cert.Spec.two) Cert.Spec.eps := by
  rw [val_main_v2_apply, val_main_v1_apply, val_main_v0_apply, val_main_cst_apply, val_main_cst_0_apply,
    val_main_cst_1_apply]
  simp only [Ideal.maximumf_def, Ideal.hostDivf_def, Ideal.ofBits_def]
  rfl

/-- c*m as the modularity matrix divides by it … -/
theorem scale_entry (W : (⟨S8192x8192, .f32⟩ : BufTy).Contents (Elt Ideal)) (i : S_.Idx) :
    val_main_v9 (F := Ideal) W i = Cert.Spec.scale (Cert.Spec.totalR W) := by
  rw [val_main_v9_apply, val_main_cst_3_apply, clamp_at]
  simp only [Ideal.mulf_def, Ideal.ofBits_def]
  rfl

/-- … and c*m as the final quotient divides by it: the same number, spelt a second time. -/
theorem scale_final (W : (⟨S8192x8192, .f32⟩ : BufTy).Contents (Elt Ideal)) (i : S_.Idx) :
    val_main_v16 (F := Ideal) W i = Cert.Spec.scale (Cert.Spec.totalR W) := by
  rw [val_main_v16_apply, val_main_cst_5_apply, clamp_at]
  simp only [Ideal.mulf_def, Ideal.ofBits_def]
  rfl

/-! ## The modularity matrix -/

/-- Entry (i,k) of W - d dᵀ / (c*m). -/
theorem mod_at (W : (⟨S8192x8192, .f32⟩ : BufTy).Contents (Elt Ideal)) (i k : Fin 8192) :
    val_main_v12 (F := Ideal) W (ix2 i k) = Cert.Spec.modEntry W i k := by
  rw [val_main_v12_apply, val_main_v11_apply, val_main_v8_apply, val_main_v6_apply, val_main_v4_apply,
    val_main_v7_apply, val_main_v5_apply, val_main_v10_apply, idx_spread_row, idx_spread_col,
    deg_at, deg_at, scale_entry]
  simp only [Ideal.subf_def, Ideal.hostDivf_def, Ideal.mulf_def]
  rfl

/-! ## The contraction with X -/

/-- Entry j of (W - d dᵀ / (c*m))·X. -/
theorem dot_at (X : (⟨S8192x128, .f32⟩ : BufTy).Contents (Elt Ideal))
    (W : (⟨S8192x8192, .f32⟩ : BufTy).Contents (Elt Ideal)) (j : S8192x128.Idx) :
    val_main_v13 (F := Ideal) X W j
      = ∑ k : Fin 8192, Cert.Spec.modEntry W (Cert.Spec.row j) k * X (ix2 k (Cert.Spec.col j)) := by
  rw [val_main_v13_apply]
  refine Finset.sum_congr rfl fun k _ => ?_
  rw [idx_dot_left, idx_dot_right, mod_at]

/-! ## The result -/

/-- The reference's scalar, wherever it is read, is the specification's reference-shaped function of X and W. -/
theorem ref_result (x0 : (⟨S8192x128, .f32⟩ : BufTy).Contents (Elt Ideal))
    (x1 : (⟨S8192x8192, .f32⟩ : BufTy).Contents (Elt Ideal)) (i : S_.Idx) :
    val_main_v18 (F := Ideal) x0 x1 i = Cert.Spec.resultR x0 x1 := by
  rw [val_main_v18_apply, val_main_v17_apply, val_main_v15_apply, val_main_cst_4_apply, scale_final]
  simp only [Ideal.hostNegf_def, Ideal.negf_def, Ideal.hostDivf_def, Ideal.ofBits_def]
  unfold Cert.Spec.resultR
  refine congrArg (fun s => -(Ideal.div (Cert.Spec.zero + s) (Cert.Spec.scale (Cert.Spec.totalR x1))))
    (Finset.sum_congr rfl fun j _ => ?_)
  rw [val_main_v14_apply, Ideal.mulf_def, dot_at]

end Cert.ReferenceIdeal.RefValue

end
-- ==== Proof.Finite.lean ====
/-
  Under the precondition every entry of both arguments is a real number.

  The precondition compares the absolute value of every entry of X, and of every entry of W, with the
  infinity word, strictly; it folds each array of answers with "and" down to one bit, starting from true,
  and returns the "and" of the two bits. If that bit is 1 then each fold is 1, so every answer is 1, so
  every entry's absolute value max x (-x) lies strictly below +∞. Of the three kinds of extended real,
  -∞ and +∞ have absolute value +∞, which is not strictly below itself; what is left is a real number.
-/
import proofs.«124940_j13434657702449_2_alg».proof.Pre_finite_inputs
import proofs.«124940_j13434657702449_2_alg».proof.Proof.Consts
import Idealize.ShloMosaic.Lib.ReduceAll
import Idealize.ShloMosaic.Lib.ValueIdx

noncomputable section

namespace Cert.Finite

open Idealize.ShloMosaic Cert.Pre_finite_inputs

/-- The scalar shape has one index. -/
instance : Subsingleton S_.Idx := ⟨fun a b => funext fun d => d.elim0⟩

/-- A strict comparison whose answer is the bit 1 holds. -/
theorem lt_of_cmp_olt {x y : EReal} (h : Ideal.cmp .olt x y = 1#1) : x < y := by
  by_contra hn
  simp [Ideal.cmp, hn] at h

/-- An extended real whose absolute value max x (-x) lies strictly below +∞ is a real number. -/
theorem real_of_abs_lt_top (x : EReal) (h : max x (-x) < ⊤) : ∃ r : ℝ, x = (r : EReal) := by
  induction x with
  | bot => simp at h
  | coe r => exact ⟨r, rfl⟩
  | top => simp at h

/-- One answer of the precondition: an entry whose absolute value compares strictly below the infinity
    word is a real number. -/
theorem real_of_cmp (x : EReal)
    (h : Ideal.cmp .olt (max x (-x)) (Ideal.ofBits .f32 0x7F800000#32) = 1#1) : ∃ r : ℝ, x = (r : EReal) := by
  have hlt := lt_of_cmp_olt h
  rw [Cert.Consts.ofBits_inf] at hlt
  exact real_of_abs_lt_top x hlt

/-- The precondition, read back: every entry of X and every entry of W is a real number. -/
theorem real_of_pre [Cert.Pre_finite_inputs.Facts]
    (X : (⟨Cert.Pre_finite_inputs.S8192x128, .f32⟩ : BufTy).Contents (Elt Ideal))
    (W : (⟨Cert.Pre_finite_inputs.S8192x8192, .f32⟩ : BufTy).Contents (Elt Ideal))
    (h : Cert.Pre_finite_inputs.fn (F := Ideal) X W = fun _ => 1#1) :
    (∀ j, ∃ r : ℝ, X j = (r : EReal)) ∧ (∀ j, ∃ r : ℝ, W j = (r : EReal)) := by
  have h0 := congrFun h ValueIdx.ix0
  dsimp only [Cert.Pre_finite_inputs.fn] at h0
  obtain ⟨hX, hW⟩ := IntOp.andi_eq_one.1 h0
  refine ⟨fun j => ?_, fun j => ?_⟩
  · have e := Host.reduce_andi_all _ _ _ _ _ hX j
    exact real_of_cmp (X j) e
  · have e := Host.reduce_andi_all _ _ _ _ _ hW j
    exact real_of_cmp (W j) e

end Cert.Finite

end
-- ==== Proof.RealLaw.lean ====
/-
  The law over the real numbers that joins the two programs: for a square matrix w, a tall matrix x and a
  nonzero scalar s, with row sums d i = ∑ j, w i j,
    ∑ i p, x i p * ∑ j, (w i j - d i * d j / s) * x j p
      = ∑ i p, x i p * ∑ j, w i j * x j p - (∑ p, (∑ n, d n * x n p) ^ 2) / s .
-/
import Idealize.ShloMosaic.PureOps.Ideal

namespace Cert.RealLaw

open Finset

variable {ι κ : Type} [Fintype ι] [Fintype κ]

/-- Subtracting the rank-one term d dᵀ / s from w before the product with x and the pairing with x
    subtracts the squared length of the degree-weighted column sums, divided by s. -/
theorem modularity_split (w : ι → ι → ℝ) (x : ι → κ → ℝ) (d : ι → ℝ) (s : ℝ) :
    ∑ i, ∑ p, x i p * ∑ j, (w i j - d i * d j / s) * x j p
      = (∑ i, ∑ p, x i p * ∑ j, w i j * x j p) - (∑ p, (∑ n, d n * x n p) * (∑ n, d n * x n p)) / s := by
  have h1 : ∀ i p, x i p * ∑ j, (w i j - d i * d j / s) * x j p
      = x i p * ∑ j, w i j * x j p - (d i * x i p) * (∑ j, d j * x j p) / s := by
    intro i p
    have : ∑ j, (w i j - d i * d j / s) * x j p = ∑ j, w i j * x j p - d i * (∑ j, d j * x j p) / s := by
      rw [Finset.mul_sum, Finset.sum_div, ← Finset.sum_sub_distrib]
      refine Finset.sum_congr rfl fun j _ => ?_
      ring
    rw [this]; ring
  simp only [h1, Finset.sum_sub_distrib]
  congr 1
  rw [Finset.sum_comm, Finset.sum_div]
  refine Finset.sum_congr rfl fun p _ => ?_
  rw [← Finset.sum_div, ← Finset.sum_mul]

end Cert.RealLaw
-- ==== Proof.Bridge.lean ====
/-
  The kernel's function and the reference's function of the argument arrays (Proof/Spec.lean) agree when every
  entry of X and W is a real number.

  With real entries every sum, product and difference in the two functions is the coercion of the same operation
  on reals, the clamped scale c * max (s / c) e is a positive real (e > 0), so both divisions are by a nonzero real,
  and the total weight is the same real on both sides (a sum over both axes at once is the sum of the row sums).
  What is left is an identity of real numbers: subtracting the rank-one matrix d dᵀ / s from W before the product
  with X and the pairing with X subtracts (∑ p, (∑ n, d n * X n p)²) / s  (Proof/RealLaw.lean).
-/
import proofs.«124940_j13434657702449_2_alg».proof.Proof.Spec
import proofs.«124940_j13434657702449_2_alg».proof.Proof.Consts
import proofs.«124940_j13434657702449_2_alg».proof.Proof.RealLaw

noncomputable section

namespace Cert.Bridge

open Idealize.ShloMosaic Idealize.ShloMosaic.ValueIdx Cert.Spec

/-- A finite sum of coerced reals is the coercion of the sum. -/
theorem coe_sum {ι : Type} (s : Finset ι) (f : ι → ℝ) :
    Finset.sum s (fun i => ((f i : ℝ) : EReal)) = ((Finset.sum s f : ℝ) : EReal) := by
  classical
  refine Finset.induction_on s (by simp) ?_
  intro a s ha ih
  rw [Finset.sum_insert ha, Finset.sum_insert ha, ih, EReal.coe_add]

/-- The maximum of two coerced reals is the coercion of the maximum. -/
theorem coe_max (a b : ℝ) : max (a : EReal) (b : EReal) = ((max a b : ℝ) : EReal) :=
  (EReal.coe_strictMono.monotone.map_max).symm

/-- Division by a nonzero real is multiplication by its inverse, on coerced reals. -/
theorem div_coe_coe (a : ℝ) {b : ℝ} (hb : b ≠ 0) : Ideal.div (a : EReal) (b : EReal) = ((a / b : ℝ) : EReal) := by
  rw [Ideal.div_coe hb, ← EReal.coe_mul, mul_one_div]

section
variable (x : IX → ℝ) (w : IW → ℝ) (e : ℝ)

/-- The real row sums, total weight and scale. -/
def dR (n : Fin 8192) : ℝ := ∑ k : Fin 8192, w (ix2 n k)
def totR : ℝ := ∑ n : Fin 8192, dR w n
def scR : ℝ := 2 * max (totR w / 2) e

theorem scR_pos (he : 0 < e) : 0 < scR w e :=
  mul_pos two_pos (lt_of_lt_of_le he (le_max_right _ _))

theorem deg_coe (n : Fin 8192) : deg (fun j => ((w j : ℝ) : EReal)) n = ((dR w n : ℝ) : EReal) := by
  unfold deg dR
  rw [show zero = 0 from Cert.Consts.ofBits_zero, zero_add, coe_sum]

theorem totalK_coe : totalK (fun j => ((w j : ℝ) : EReal)) = ((totR w : ℝ) : EReal) := by
  unfold totalK totR
  simp only [deg_coe]
  rw [show zero = 0 from Cert.Consts.ofBits_zero, zero_add, coe_sum]

theorem totalR_coe : totalR (fun j => ((w j : ℝ) : EReal)) = ((totR w : ℝ) : EReal) := by
  unfold totalR totR dR
  rw [show zero = 0 from Cert.Consts.ofBits_zero, zero_add, coe_sum, sum_idx2]

theorem scale_coe (s : ℝ) (heps : eps = ((e : ℝ) : EReal)) :
    scale ((s : ℝ) : EReal) = ((2 * max (s / 2) e : ℝ) : EReal) := by
  unfold scale
  rw [show two = ((2 : ℝ) : EReal) from Cert.Consts.ofBits_two, heps, div_coe_coe s two_ne_zero, coe_max, ← EReal.coe_mul]

end

/-- Under real entries the two functions are the same extended real. -/
theorem resultK_eq_resultR (X : IX → EReal) (W : IW → EReal)
    (hX : ∀ j, ∃ r : ℝ, X j = (r : EReal)) (hW : ∀ j, ∃ r : ℝ, W j = (r : EReal)) :
    resultK X W = resultR X W := by
  choose x hx using hX
  choose w hw using hW
  obtain rfl : X = fun j => ((x j : ℝ) : EReal) := funext hx
  obtain rfl : W = fun j => ((w j : ℝ) : EReal) := funext hw
  obtain ⟨e, he, heps⟩ := Cert.Consts.ofBits_eps
  have hsc : scR w e ≠ 0 := (scR_pos w e he).ne'
  have hz : zero = 0 := Cert.Consts.ofBits_zero
  -- the kernel's side as the coercion of a real
  have hK : resultK (fun j => ((x j : ℝ) : EReal)) (fun j => ((w j : ℝ) : EReal))
      = ((-(((∑ i : Fin 8192, ∑ p : Fin 128, x (ix2 i p) * ∑ k : Fin 8192, w (ix2 i k) * x (ix2 k p))
          - (∑ p : Fin 128, (∑ n : Fin 8192, dR w n * x (ix2 n p)) * (∑ n : Fin 8192, dR w n * x (ix2 n p))) / scR w e) / scR w e) : ℝ) : EReal) := by
    unfold resultK s1 dX wx
    simp only [deg_coe, totalK_coe, scale_coe e (totR w) heps, hz, zero_add, ← EReal.coe_mul, coe_sum]
    rw [show (2 * max (totR w / 2) e : ℝ) = scR w e from rfl, div_coe_coe _ hsc, ← EReal.coe_sub, div_coe_coe _ hsc, ← EReal.coe_neg]
  -- the reference's side as the coercion of a real
  have hR : resultR (fun j => ((x j : ℝ) : EReal)) (fun j => ((w j : ℝ) : EReal))
      = ((-((∑ i : Fin 8192, ∑ p : Fin 128, x (ix2 i p) * ∑ k : Fin 8192, (w (ix2 i k) - dR w i * dR w k / scR w e) * x (ix2 k p)) / scR w e) : ℝ) : EReal) := by
    unfold resultR modEntry
    simp only [deg_coe, totalR_coe, scale_coe e (totR w) heps, hz, zero_add, ← EReal.coe_mul]
    rw [show (2 * max (totR w / 2) e : ℝ) = scR w e from rfl]
    simp only [div_coe_coe _ hsc, ← EReal.coe_sub, ← EReal.coe_mul, coe_sum]
    rw [← EReal.coe_neg, sum_idx2]
    simp only [row_ix2, col_ix2]
  rw [hK, hR, Cert.RealLaw.modularity_split (fun i k => w (ix2 i k)) (fun i p => x (ix2 i p)) (dR w) (scR w e)]

end Cert.Bridge

end
-- ==== Proof.lean ====
/-
  A fused Pallas kernel for the modularity objective against its jnp reference, equal over the extended reals.

  X is an [8192,128] array and W an [8192,8192] array of finite floats. Write d n = ∑ k, W (n,k) for the degrees,
  c for the constant 2.0, e for the constant 1e-8, and m = max ((∑ W) / c) e.

    The reference forms the matrix B = W - d dᵀ / (c·m), the product B·X, and returns  -(∑ X ∘ (B·X)) / (c·m).

    The kernel passes over W once, in row blocks of 2048 and column blocks of 1024. For each row block it keeps two
    accumulators across the eight column blocks: the partial product of W's rows with X and the partial row sums.
    At the last column block it writes out, per row n, the degree d n and the pairing s n = ∑ p, X (n,p) · (W·X) (n,p).
    Outside the call it forms dX p = ∑ n, d n · X (n,p) and returns  -((∑ n, s n - (∑ p, dX p ²) / (c·m)) / (c·m)),
    with the total ∑ W taken as ∑ n, d n.

  The two agree because  ∑ X ∘ ((d dᵀ)·X) = ∑ p, (∑ n, d n · X (n,p))²  — a rank-one matrix pairs to a sum of
  squares — and because a sum over both axes of W is the sum of its row sums. The first step distributes products
  over sums and divides by c·m, which is why the inputs must be finite: then every quantity is a real number, and
  c·m ≥ c·e > 0. A change of float format (the kernel multiplies in bf16) is the identity at the exact instance.

  The modules: Spec (the two functions), RealLaw and Bridge (they agree on real entries), Consts (the float words),
  Finite (finite inputs are real), RefValue (the reference is its function); for the kernel Pieces, Accum,
  PayloadsIdeal, Blocks, BlockSum, AccumIdeal (the accumulators after each grid point), Arrays (the two result
  columns), TailValue, KernelResult and KernelValue (the scalar after the call).
-/
import proofs.«124940_j13434657702449_2_alg».proof.Defs
import proofs.«124940_j13434657702449_2_alg».proof.Proof.Gen.Kernel
import proofs.«124940_j13434657702449_2_alg».proof.Proof.Gen.Kernel.Skeleton
import proofs.«124940_j13434657702449_2_alg».proof.Proof.Gen.Kernel.Launch
import proofs.«124940_j13434657702449_2_alg».proof.Proof.Gen.Kernel.Points
import proofs.«124940_j13434657702449_2_alg».proof.Proof.Gen.Kernel.Frame
import proofs.«124940_j13434657702449_2_alg».proof.Proof.Gen.KernelIdeal
import proofs.«124940_j13434657702449_2_alg».proof.Proof.Gen.KernelIdeal.Skeleton
import proofs.«124940_j13434657702449_2_alg».proof.Proof.Gen.KernelIdeal.Launch
import proofs.«124940_j13434657702449_2_alg».proof.Proof.Gen.KernelIdeal.Points
import proofs.«124940_j13434657702449_2_alg».proof.Proof.Gen.KernelIdeal.Frame
import proofs.«124940_j13434657702449_2_alg».proof.Proof.Gen.ReferenceIdeal
import proofs.«124940_j13434657702449_2_alg».proof.Proof.Gen.ReferenceIdeal.Run
import proofs.«124940_j13434657702449_2_alg».proof.Proof.Gen.ReferenceIdeal.Read
import proofs.«124940_j13434657702449_2_alg».proof.Proof.Gen.Pre_finite_inputs
import proofs.«124940_j13434657702449_2_alg».proof.Proof.KernelValue
import proofs.«124940_j13434657702449_2_alg».proof.Proof.RefValue
import proofs.«124940_j13434657702449_2_alg».proof.Proof.Finite
import proofs.«124940_j13434657702449_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel and its idealization run to the end and leave their arguments as they found them. -/
theorem frame_kernel : Cert.frame_Kernel := fun m ρ _ => Cert.Kernel.Gen.frame m ρ
theorem frame_kernelIdeal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- At the exact instance the kernel's result is its function of X and W, the reference's is its own function of
    arguments that agree, and under the precondition every entry is a real number, where the two functions agree. -/
theorem algebraic : Cert.algebraic_KernelIdeal_ReferenceIdeal := by
  intro m ρ m' ρ' hpre hagree
  refine ⟨fun c => (fun _ => Cert.Spec.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))),
    Cert.KernelIdeal.KernelValue.run m ρ, ?_⟩
  refine (θ_run Cert.ReferenceIdeal.defs _ _).mono (fun _ h c => ⟨?_, (h c).2⟩)
    (Cert.ReferenceIdeal.Value.run (F := Ideal) m' ρ')
  obtain ⟨hX, hW⟩ := Cert.Finite.real_of_pre _ _ (hpre c)
  rw [(h c).1, Cert.ReferenceIdeal.Read.val_main_v18_eq, (hagree c).1, (hagree c).2]
  funext i
  rw [Cert.ReferenceIdeal.RefValue.ref_result]
  exact (Cert.Bridge.resultK_eq_resultR _ _ hX hW).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
